-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4x1024x1024 : Shape := ⟨4, ![16, 4, 1024, 1024]⟩
abbrev S16x1024x1024 : Shape := ⟨3, ![16, 1024, 1024]⟩
abbrev S_ : Shape := ⟨0, ![]⟩

class Facts : Prop where
  bcast_S_S16x4x1024x1024 : S_.BroadcastsInDim S16x4x1024x1024 (![] : Fin 0 → Fin S16x4x1024x1024.rank)
  reducesTo_S16x4x1024x1024_S_d0_1_2_3 : S16x4x1024x1024.ReducesTo [0, 1, 2, 3] S_
  h_S_ : 0 < S_.numel

variable [Facts]

def fn {F : FTy → Type} [FloatOps F] (main_arg0 : FVec F S16x4x1024x1024 .f32) (main_arg1 : IVec S16x1024x1024 32) : IVec S_ 1 :=
  let main_v0 : FVec F S16x4x1024x1024 .f32 := Host.absf main_arg0
  let main_cst : FVec F S_ .f32 := constant S_ .f32 0x7F800000#32
  let main_v1 : FVec F S16x4x1024x1024 .f32 := broadcastInDim S16x4x1024x1024 ![] bcast_S_S16x4x1024x1024 main_cst
  let main_v2 : IVec S16x4x1024x1024 1 := cmpf .olt main_v0 main_v1
  let main_c : IVec S_ 1 := constantI S_ 1 1#1
  let main_v3 : IVec S_ 1 := (fun x v => Host.reduce IntOp.andi x v reducesTo_S16x4x1024x1024_S_d0_1_2_3 h_S_) main_v2 main_c
  main_v3
-- ==== Kernel.lean ====
abbrev S16x4x1024x1024 : Shape := ⟨4, ![16, 4, 1024, 1024]⟩
abbrev S16x1024x1024 : Shape := ⟨3, ![16, 1024, 1024]⟩
abbrev S16x8x128 : Shape := ⟨3, ![16, 8, 128]⟩
abbrev S1x4x128x1024 : Shape := ⟨4, ![1, 4, 128, 1024]⟩
abbrev S1x128x1024 : Shape := ⟨3, ![1, 128, 1024]⟩
abbrev S1x8x128 : Shape := ⟨3, ![1, 8, 128]⟩
abbrev S4x128x1024 : Shape := ⟨3, ![4, 128, 1024]⟩
abbrev S128x1024 : Shape := ⟨2, ![128, 1024]⟩
abbrev S8x128 : Shape := ⟨2, ![8, 128]⟩
abbrev S128 : Shape := ⟨1, ![128]⟩
abbrev S128x1 : Shape := ⟨2, ![128, 1]⟩
abbrev S1 : Shape := ⟨1, ![1]⟩
abbrev S1x1 : Shape := ⟨2, ![1, 1]⟩
abbrev S_ : Shape := ⟨0, ![]⟩
abbrev S1x3 : Shape := ⟨2, ![1, 3]⟩
abbrev S3 : Shape := ⟨1, ![3]⟩

abbrev nBuf : Space → Nat
  | .hbm => 37
  | .vmem => 6
  | .smem => 0
  | _ => 0

abbrev bufTy : (tb : Table) → Fin (tcTables nBuf tb) → BufTy
  | .hbm, ⟨0, _⟩ => ⟨S16x4x1024x1024, .f32⟩
  | .hbm, ⟨1, _⟩ => ⟨S16x1024x1024, .i32⟩
  | .hbm, ⟨2, _⟩ => ⟨S16x8x128, .f32⟩
  | .hbm, ⟨3, _⟩ => ⟨S_, .f32⟩
  | .hbm, ⟨4, _⟩ => ⟨S8x128, .f32⟩
  | .hbm, ⟨5, _⟩ => ⟨S1x3, .f32⟩
  | .hbm, ⟨6, _⟩ => ⟨S3, .f32⟩
  | .hbm, ⟨7, _⟩ => ⟨S1x3, .f32⟩
  | .hbm, ⟨8, _⟩ => ⟨S3, .f32⟩
  | .hbm, ⟨9, _⟩ => ⟨S1x3, .f32⟩
  | .hbm, ⟨10, _⟩ => ⟨S3, .f32⟩
  | .hbm, ⟨11, _⟩ => ⟨S_, .f32⟩
  | .hbm, ⟨12, _⟩ => ⟨S3, .f32⟩
  | .hbm, ⟨13, _⟩ => ⟨S3, .f32⟩
  | .hbm, ⟨14, _⟩ => ⟨S3, .f32⟩
  | .hbm, ⟨15, _⟩ => ⟨S_, .f32⟩
  | .hbm, ⟨16, _⟩ => ⟨S3, .f32⟩
  | .hbm, ⟨17, _⟩ => ⟨S3, .f32⟩
  | .hbm, ⟨18, _⟩ => ⟨S3, .f32⟩
  | .hbm, ⟨19, _⟩ => ⟨S3, .f32⟩
  | .hbm, ⟨20, _⟩ => ⟨S3, .f32⟩
  | .hbm, ⟨21, _⟩ => ⟨S3, .f32⟩
  | .hbm, ⟨22, _⟩ => ⟨S3, .f32⟩
  | .hbm, ⟨23, _⟩ => ⟨S_, .f32⟩
  | .hbm, ⟨24, _⟩ => ⟨S3, .f32⟩
  | .hbm, ⟨25, _⟩ => ⟨S3, .f32⟩
  | .hbm, ⟨26, _⟩ => ⟨S3, .f32⟩
  | .hbm, ⟨27, _⟩ => ⟨S_, .f32⟩
  | .hbm, ⟨28, _⟩ => ⟨S3, .f32⟩
  | .hbm, ⟨29, _⟩ => ⟨S3, .i1⟩
  | .hbm, ⟨30, _⟩ => ⟨S_, .f32⟩
  | .hbm, ⟨31, _⟩ => ⟨S3, .f32⟩
  | .hbm, ⟨32, _⟩ => ⟨S3, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S1x4x128x1024, .f32⟩
  | .local _ .vmem, ⟨1, _⟩ => ⟨S1x4x128x1024, .f32⟩
  | .local _ .vmem, ⟨2, _⟩ => ⟨S1x128x1024, .i32⟩
  | .local _ .vmem, ⟨3, _⟩ => ⟨S1x128x1024, .i32⟩
  | .local _ .vmem, ⟨4, _⟩ => ⟨S1x8x128, .f32⟩
  | .local _ .vmem, ⟨5, _⟩ => ⟨S1x8x128, .f32⟩
  | _, _ => ⟨S16x4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x4x128x1024_S1x4x128x1024_0_0_0_0 : ∀ a, (![0, 0, 0, 0] : Fin 4 → Nat) a + S1x4x128x1024.size a ≤ S1x4x128x1024.size a
  h_S1x4x128x1024 : 0 < S1x4x128x1024.numel
  shapeCasts_S1x4x128x1024_S4x128x1024 : S1x4x128x1024.ShapeCasts S4x128x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  reduces_S4x128x1024_S128x1024 : S4x128x1024.Reduces [0] S128x1024
  shapeCasts_S128x1024_S1x128x1024 : S128x1024.ShapeCasts S1x128x1024
  broadcasts_S1x128x1024_S4x128x1024 : S1x128x1024.Broadcasts S4x128x1024
  iota_S8x128_d0_w32 : S8x128.Iotas .tc 32 [0]
  iota_S8x128_d1_w32 : S8x128.Iotas .tc 32 [1]
  natLt_1_32 : 1 < 32
  slices_S4x128x1024_o1_0_0_S1x128x1024 : S4x128x1024.Slices ![1, 0, 0] S1x128x1024
  reduces_S128x1024_S128 : S128x1024.Reduces [1] S128
  shapeCasts_S128_S128x1 : S128.ShapeCasts S128x1
  reduces_S128x1_S1 : S128x1.Reduces [0] S1
  shapeCasts_S1_S1x1 : S1.ShapeCasts S1x1
  broadcasts_S1x1_S8x128 : S1x1.Broadcasts S8x128
  slices_S4x128x1024_o2_0_0_S1x128x1024 : S4x128x1024.Slices ![2, 0, 0] S1x128x1024
  slices_S4x128x1024_o3_0_0_S1x128x1024 : S4x128x1024.Slices ![3, 0, 0] S1x128x1024
  inb_S1x8x128_S1x8x128_0_0_0 : ∀ a, (![0, 0, 0] : Fin 3 → Nat) a + S1x8x128.size a ≤ S1x8x128.size a
  h_S1x8x128 : 0 < S1x8x128.numel
  shapeCasts_S1x8x128_S1x8x128 : S1x8x128.ShapeCasts S1x8x128
  shapeCasts_S8x128_S1x8x128 : S8x128.ShapeCasts S1x8x128
  reducesTo_S16x8x128_S8x128_d0 : S16x8x128.ReducesTo [0] S8x128
  h_S_ : 0 < S_.numel
  slices_S8x128_S1x3_0_0 : S8x128.Slices ![0, 0] S1x3
  shapeCasts_S1x3_S3 : S1x3.ShapeCasts S3
  slices_S8x128_S1x3_1_0 : S8x128.Slices ![1, 0] S1x3
  slices_S8x128_S1x3_2_0 : S8x128.Slices ![2, 0] S1x3
  bcast_S_S3 : S_.BroadcastsInDim S3 (![] : Fin 0 → Fin S3.rank)
  reducesTo_S3_S_d0 : S3.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x128x1024.size a ≤ S16x4x1024x1024.size a
  hwx0_0 : ∀ i : grid0.Coords, EltTy.bits .f32 = 32 ∨ (Rect.block (s := S16x4x1024x1024) S1x4x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1024.size a ≤ S16x1024x1024.size a
  hwx0_1 : ∀ i : grid0.Coords, EltTy.bits .i32 = 32 ∨ (Rect.block (s := S16x1024x1024) S1x128x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S16x8x128.size a
  hwx0_2 : ∀ i : grid0.Coords, EltTy.bits .f32 = 32 ∨ (Rect.block (s := S16x8x128) S1x8x128.size (cc0_transform_2 i) (hinb0_2 i)).WholeWords (EltTy.packing .f32)

variable [Facts₀]

abbrev win0_0 : Pipeline.Window sig grid0 :=
  Pipeline.Window.ofSpec (Memref.whole main_arg0) S1x4x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4x1024x1024 : Shape := ⟨4, ![16, 4, 1024, 1024]⟩
abbrev S16x1024x1024 : Shape := ⟨3, ![16, 1024, 1024]⟩
abbrev S_ : Shape := ⟨0, ![]⟩
abbrev S16x1x1024x1024 : Shape := ⟨4, ![16, 1, 1024, 1024]⟩
abbrev S3 : Shape := ⟨1, ![3]⟩
abbrev S1x3x1x1 : Shape := ⟨4, ![1, 3, 1, 1]⟩
abbrev S16x3x1024x1024 : Shape := ⟨4, ![16, 3, 1024, 1024]⟩

abbrev nBuf : Space → Nat
  | .hbm => 57
  | .vmem => 0
  | .smem => 0
  | _ => 0

abbrev bufTy : (tb : Table) → Fin (tcTables nBuf tb) → BufTy
  | .hbm, ⟨0, _⟩ => ⟨S16x4x1024x1024, .f32⟩
  | .hbm, ⟨1, _⟩ => ⟨S16x1024x1024, .i32⟩
  | .hbm, ⟨2, _⟩ => ⟨S_, .f32⟩
  | .hbm, ⟨3, _⟩ => ⟨S16x1024x1024, .f32⟩
  | .hbm, ⟨4, _⟩ => ⟨S_, .f32⟩
  | .hbm, ⟨5, _⟩ => ⟨S16x1024x1024, .f32⟩
  | .hbm, ⟨6, _⟩ => ⟨S16x1024x1024, .f32⟩
  | .hbm, ⟨7, _⟩ => ⟨S16x1x1024x1024, .f32⟩
  | .hbm, ⟨8, _⟩ => ⟨S16x4x1024x1024, .f32⟩
  | .hbm, ⟨9, _⟩ => ⟨S16x4x1024x1024, .f32⟩
  | .hbm, ⟨10, _⟩ => ⟨S16x4x1024x1024, .f32⟩
  | .hbm, ⟨11, _⟩ => ⟨S_, .f32⟩
  | .hbm, ⟨12, _⟩ => ⟨S16x1024x1024, .f32⟩
  | .hbm, ⟨13, _⟩ => ⟨S16x1x1024x1024, .f32⟩
  | .hbm, ⟨14, _⟩ => ⟨S16x4x1024x1024, .f32⟩
  | .hbm, ⟨15, _⟩ => ⟨S16x4x1024x1024, .f32⟩
  | .hbm, ⟨16, _⟩ => ⟨S3, .i32⟩
  | .hbm, ⟨17, _⟩ => ⟨S_, .i32⟩
  | .hbm, ⟨18, _⟩ => ⟨S3, .i32⟩
  | .hbm, ⟨19, _⟩ => ⟨S3, .i32⟩
  | .hbm, ⟨20, _⟩ => ⟨S16x1x1024x1024, .i32⟩
  | .hbm, ⟨21, _⟩ => ⟨S1x3x1x1, .i32⟩
  | .hbm, ⟨22, _⟩ => ⟨S16x3x1024x1024, .i32⟩
  | .hbm, ⟨23, _⟩ => ⟨S16x3x1024x1024, .i32⟩
  | .hbm, ⟨24, _⟩ => ⟨S16x3x1024x1024, .i1⟩
  | .hbm, ⟨25, _⟩ => ⟨S16x3x1024x1024, .f32⟩
  | .hbm, ⟨26, _⟩ => ⟨S16x3x1024x1024, .f32⟩
  | .hbm, ⟨27, _⟩ => ⟨S16x3x1024x1024, .f32⟩
  | .hbm, ⟨28, _⟩ => ⟨S_, .f32⟩
  | .hbm, ⟨29, _⟩ => ⟨S3, .f32⟩
  | .hbm, ⟨30, _⟩ => ⟨S_, .f32⟩
  | .hbm, ⟨31, _⟩ => ⟨S3, .f32⟩
  | .hbm, ⟨32, _⟩ => ⟨S_, .f32⟩
  | .hbm, ⟨33, _⟩ => ⟨S3, .f32⟩
  | .hbm, ⟨34, _⟩ => ⟨S3, .f32⟩
  | .hbm, ⟨35, _⟩ => ⟨S3, .f32⟩
  | .hbm, ⟨36, _⟩ => ⟨S1x3x1x1, .f32⟩
  | .hbm, ⟨37, _⟩ => ⟨S16x3x1024x1024, .f32⟩
  | .hbm, ⟨38, _⟩ => ⟨S16x3x1024x1024, .f32⟩
  | .hbm, ⟨39, _⟩ => ⟨S16x3x1024x1024, .f32⟩
  | .hbm, ⟨40, _⟩ => ⟨S16x3x1024x1024, .f32⟩
  | .hbm, ⟨41, _⟩ => ⟨S_, .f32⟩
  | .hbm, ⟨42, _⟩ => ⟨S3, .f32⟩
  | .hbm, ⟨43, _⟩ => ⟨S_, .f32⟩
  | .hbm, ⟨44, _⟩ => ⟨S3, .f32⟩
  | .hbm, ⟨45, _⟩ => ⟨S3, .f32⟩
  | .hbm, ⟨46, _⟩ => ⟨S3, .f32⟩
  | .hbm, ⟨47, _⟩ => ⟨S_, .f32⟩
  | .hbm, ⟨48, _⟩ => ⟨S3, .f32⟩
  | .hbm, ⟨49, _⟩ => ⟨S3, .i1⟩
  | .hbm, ⟨50, _⟩ => ⟨S_, .f32⟩
  | .hbm, ⟨51, _⟩ => ⟨S3, .f32⟩
  | .hbm, ⟨52, _⟩ => ⟨S3, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S16x4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_7 : Ref sig .tc := ⟨.hbm, 47, rfl⟩
abbrev main_v36 : Ref sig .tc := ⟨.hbm, 48, rfl⟩
abbrev main_v37 : Ref sig .tc := ⟨.hbm, 49, rfl⟩
abbrev main_cst_8 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_cst_10 : Ref sig .tc := ⟨.hbm, 55, rfl⟩
abbrev main_v41 : Ref sig .tc := ⟨.hbm, 56, rfl⟩

abbrev nD : Nat := 1
abbrev τ : Topo := Topo.v7x

variable {F : FTy → Type} [FloatOps F]

class Facts₀ : Prop where
  reducesTo_S16x4x1024x1024_S16x1024x1024_d1 : S16x4x1024x1024.ReducesTo [1] S16x1024x1024
  h_S_ : 0 < S_.numel
  bcast_S_S16x1024x1024 : S_.BroadcastsInDim S16x1024x1024 (![] : Fin 0 → Fin S16x1024x1024.rank)
  bcast_S16x1024x1024_S16x1x1024x1024_0_2_3 : S16x1024x1024.BroadcastsInDim S16x1x1024x1024 (![0, 2, 3] : Fin 3 → Fin S16x1x1024x1024.rank)
  bcast_S16x1x1024x1024_S16x4x1024x1024_0_1_2_3 : S16x1x1024x1024.BroadcastsInDim S16x4x1024x1024 (![0, 1, 2, 3] : Fin 4 → Fin S16x4x1024x1024.rank)
  bcast_S_S3 : S_.BroadcastsInDim S3 (![] : Fin 0 → Fin S3.rank)
  bcast_S3_S1x3x1x1_1 : S3.BroadcastsInDim S1x3x1x1 (![1] : Fin 1 → Fin S1x3x1x1.rank)
  bcast_S16x1x1024x1024_S16x3x1024x1024_0_1_2_3 : S16x1x1024x1024.BroadcastsInDim S16x3x1024x1024 (![0, 1, 2, 3] : Fin 4 → Fin S16x3x1024x1024.rank)
  bcast_S1x3x1x1_S16x3x1024x1024_0_1_2_3 : S1x3x1x1.BroadcastsInDim S16x3x1024x1024 (![0, 1, 2, 3] : Fin 4 → Fin S16x3x1024x1024.rank)
  slices_S16x4x1024x1024_S16x3x1024x1024_0_1_0_0 : S16x4x1024x1024.Slices ![0, 1, 0, 0] S16x3x1024x1024
  reducesTo_S16x3x1024x1024_S3_d0_2_3 : S16x3x1024x1024.ReducesTo [0, 2, 3] S3
  reducesTo_S3_S_d0 : S3.ReducesTo [0] S_

variable [Facts₀]

class Facts : Prop extends Facts₀ where

variable [Facts]
-- ==== Proof.KernelBlocks.lean ====
/-
  Where the windows' blocks sit. The grid is 16 × 8: point `t` is batch entry `t / 8` and row tile `t % 8`. The logits' block at `t`
  is rows `128 · (t % 8) …` of entry `t / 8`, all four channels, all columns; the labels' block the same rows of the same entry;
  the output's block is the 8 × 128 slab of entry `t / 8`, revisited by the eight points of the entry.
-/
import proofs.«140613_j68015102099647_1_alg».proof.Proof.Gen.KernelIdeal.Frame
import Idealize.ShloMosaic.Lib.ValueIdx
import Idealize.ShloMosaic.Lib.Pipeline.Value

noncomputable section

namespace Cert.KernelIdeal.Acc

open Idealize.ShloMosaic Idealize.ShloMosaic.TcCoe Idealize.SL.Sem Idealize.ShloMosaic.ValueIdx
open Cert.KernelIdeal Cert.KernelIdeal.Gen
open Idealize.ShloMosaic.Pipeline (Dat)

variable {F : FTy → Type} [FloatOps F]
variable (m : (ℓ : Loc nD τ sig) → Buf (Elt F) ℓ)

/-- The block indices of the three windows at every grid point. -/
theorem index0 : ∀ t : Fin cfg0.N, win0_0.index t 0 = t.val / 8 ∧ win0_0.index t 1 = 0 ∧ win0_0.index t 2 = t.val % 8 ∧ win0_0.index t 3 = 0 :=
  (by decide +kernel : ∀ t : Fin grid0.N, win0_0.index t 0 = t.val / 8 ∧ win0_0.index t 1 = 0 ∧ win0_0.index t 2 = t.val % 8 ∧ win0_0.index t 3 = 0)
theorem index1 : ∀ t : Fin cfg0.N, win0_1.index t 0 = t.val / 8 ∧ win0_1.index t 1 = t.val % 8 ∧ win0_1.index t 2 = 0 :=
  (by decide +kernel : ∀ t : Fin grid0.N, win0_1.index t 0 = t.val / 8 ∧ win0_1.index t 1 = t.val % 8 ∧ win0_1.index t 2 = 0)
theorem index2 : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)

/-- There are 128 grid points. -/
theorem tlt (t : Fin cfg0.N) : t.val < 128 := lt_of_lt_of_eq t.isLt N_0

/-- The batch entry of point `t`, and the array row of the point's tile row `row`. -/
def ent (t : Fin cfg0.N) : Fin 16 := ⟨t.val / 8, by have := tlt t; omega⟩
def arow (t : Fin cfg0.N) (row : Fin 128) : Fin 1024 := ⟨128 * (t.val % 8) + row.val, by have := row.isLt; omega⟩

/-- The logits' block at point `t`, read at (channel, row, column): the array at entry `t / 8`, row `128 · (t % 8) + row`. -/
theorem iblk0_apply (c : Dev nD) (t : Fin cfg0.N) (ch : Fin 4) (row : Fin 128) (w : Fin 1024) :
    (iblk m c 0 t : Vec F S1x4x128x1024 .f32) (ix4 (0 : Fin 1) ch row w)
      = V m c main_arg0 (ix4 (ent t) ch (arow t row) w) := by
  unfold iblk
  rw [View.read_apply]
  show V m c main_arg0 _ = V m c main_arg0 _
  congr 1
  funext a
  apply Fin.ext
  obtain ⟨h0, h1, h2, h3⟩ := index0 t
  match a with
  | ⟨0, _⟩ => show win0_0.index t 0 * 1 + 1 * 0 = t.val / 8; rw [h0]; omega
  | ⟨1, _⟩ => show win0_0.index t 1 * 4 + 1 * ch.val = ch.val; rw [h1]; omega
  | ⟨2, _⟩ => show win0_0.index t 2 * 128 + 1 * row.val = 128 * (t.val % 8) + row.val; rw [h2]; omega
  | ⟨3, _⟩ => show win0_0.index t 3 * 1024 + 1 * w.val = w.val; rw [h3]; omega

/-- The labels' block at point `t`, read at (row, column). -/
theorem iblk1_apply (c : Dev nD) (t : Fin cfg0.N) (row : Fin 128) (w : Fin 1024) :
    (iblk m c 1 t : Vec F S1x128x1024 .i32) (ix3 (0 : Fin 1) row w)
      = V m c main_arg1 (ix3 (ent t) (arow t row) w) := by
  unfold iblk
  rw [View.read_apply]
  show V m c main_arg1 _ = V m c main_arg1 _
  congr 1
  funext a
  apply Fin.ext
  obtain ⟨h0, h1, h2⟩ := index1 t
  match a with
  | ⟨0, _⟩ => show win0_1.index t 0 * 1 + 1 * 0 = t.val / 8; rw [h0]; omega
  | ⟨1, _⟩ => show win0_1.index t 1 * 128 + 1 * row.val = 128 * (t.val % 8) + row.val; rw [h1]; omega
  | ⟨2, _⟩ => show win0_1.index t 2 * 1024 + 1 * w.val = w.val; rw [h2]; omega

end Cert.KernelIdeal.Acc

end
-- ==== Proof.Spec.lean ====
/-
  The mathematics of the claim, with no program in it.

  A pixel has four logits `x : Fin 4 → EReal` and a label `t`. Its softmax is `prob x c = exp (x c - max x) / ∑ c', exp (x c' - max x)`;
  for the three foreground classes `j = 0, 1, 2` (labels 1, 2, 3) the masked probability is `pc x t j = prob x (j + 1) · [t = j + 1]`.
  Over all `16 · 1024 · 1024` pixels, per class: the count `cnt` of the mask, the sum `sm` and the sum of squares `sq` of the masked
  probabilities, the mean `sm / (cnt + ε)`, and the sum `dev` of the masked squared deviations from the mean.
  One side of the claim averages `dev / (cnt + ε)` over the classes that occur, the other
  `(sq - 2 · mean · sm + mean² · cnt) / (cnt + ε)`: the two agree on finite logits because the mask is 0 or 1,
  so `pc · mask = pc` and `(pc - μ)² · mask = pc² - 2 μ pc + μ² mask`, summed.
-/
import Idealize.ShloMosaic.PureOps.Ideal
import Idealize.ShloMosaic.Lib.ValueIdx

noncomputable section

namespace Cert.ClassVar

open Idealize.ShloMosaic Idealize.ShloMosaic.ValueIdx

/-- The logits' shape [batch, class, row, column] and the labels' [batch, row, column]. -/
abbrev SX : Shape := ⟨4, ![16, 4, 1024, 1024]⟩
abbrev ST : Shape := ⟨3, ![16, 1024, 1024]⟩

/-- The three float constants of the formulas, as the words both programs carry: ε (the nearest f32 to 1e-6), 2 and 3. -/
abbrev eps : EReal := Ideal.ofBits .f32 0x358637BD#32
abbrev two : EReal := Ideal.ofBits .f32 0x40000000#32
abbrev three : EReal := Ideal.ofBits .f32 0x40400000#32

/-! ## One pixel -/

/-- The largest of a pixel's four logits, folded from -∞. -/
def pmax (x : Fin 4 → EReal) : EReal := Finset.univ.fold max ⊥ x

/-- A logit's exponential after the largest is subtracted. -/
def pexp (x : Fin 4 → EReal) (c : Fin 4) : EReal := Ideal.exp (x c - pmax x)

/-- The softmax's normaliser. -/
def pden (x : Fin 4 → EReal) : EReal := ∑ c : Fin 4, pexp x c

/-- The softmax probability of class `c`. -/
def prob (x : Fin 4 → EReal) (c : Fin 4) : EReal := Ideal.div (pexp x c) (pden x)

/-- Foreground class `j` is label `j + 1`, as a 32-bit word. -/
def cls (j : Fin 3) : BitVec 32 := BitVec.ofNat 32 (j.val + 1)

/-- The channel of foreground class `j`. -/
def chan (j : Fin 3) : Fin 4 := ⟨j.val + 1, by omega⟩

/-- The class mask of a pixel: 1 where its label is the class, else 0. -/
def mask (t : BitVec 32) (j : Fin 3) : EReal := if t = cls j then 1 else 0

/-- The masked class probability of a pixel. -/
def pc (x : Fin 4 → EReal) (t : BitVec 32) (j : Fin 3) : EReal := prob x (chan j) * mask t j

/-! ## All pixels -/

section
variable (X : SX.Idx → EReal) (T : ST.Idx → BitVec 32)

/-- The four logits and the label of pixel (b, r, w). -/
def px (b : Fin 16) (r w : Fin 1024) : Fin 4 → EReal := fun c => X (ix4 b c r w)
def lab (b : Fin 16) (r w : Fin 1024) : BitVec 32 := T (ix3 b r w)

/-- Per class: how many pixels carry it, -/
def cnt (j : Fin 3) : EReal := ∑ b : Fin 16, ∑ r : Fin 1024, ∑ w : Fin 1024, mask (lab T b r w) j
/-- the sum of the masked probabilities, -/
def sm (j : Fin 3) : EReal := ∑ b : Fin 16, ∑ r : Fin 1024, ∑ w : Fin 1024, pc (px X b r w) (lab T b r w) j
/-- and the sum of their squares. -/
def sq (j : Fin 3) : EReal :=
  ∑ b : Fin 16, ∑ r : Fin 1024, ∑ w : Fin 1024, pc (px X b r w) (lab T b r w) j * pc (px X b r w) (lab T b r w) j

/-- The class mean of the masked probabilities (ε keeps an absent class's quotient defined). -/
def mean (j : Fin 3) : EReal := Ideal.div (sm X T j) (cnt T j + eps)

/-- The sum of the masked squared deviations from the class mean. -/
def dev (j : Fin 3) : EReal :=
  ∑ b : Fin 16, ∑ r : Fin 1024, ∑ w : Fin 1024,
    ((pc (px X b r w) (lab T b r w) j - mean X T j) * (pc (px X b r w) (lab T b r w) j - mean X T j)) * mask (lab T b r w) j

/-- The class variance, from the deviations -/
def varDev (j : Fin 3) : EReal := Ideal.div (dev X T j) (cnt T j + eps)
/-- and from the three sums. -/
def varSums (j : Fin 3) : EReal :=
  Ideal.div ((sq X T j - (two * mean X T j) * sm X T j) + (mean X T j * mean X T j) * cnt T j) (cnt T j + eps)

/-- A class contributes its variance only if it occurs. -/
def pick (n v : EReal) : EReal := if 0 < n then v else 0

/-- The mean over the three classes of the variances of those that occur: from the deviations, -/
def outDev : EReal := Ideal.div (∑ j : Fin 3, pick (cnt T j) (varDev X T j)) three
/-- and from the sums. -/
def outSums : EReal := Ideal.div (∑ j : Fin 3, pick (cnt T j) (varSums X T j)) three

end

end Cert.ClassVar

end
-- ==== Proof.TileSpec.lean ====
/-
  One grid point's share of the sums. A tile is 128 consecutive rows of one batch entry: logits [1, 4, 128, 1024], labels
  [1, 128, 1024]. Its count, sum and sum of squares per class are the whole-array sums restricted to the tile's pixels, and
  the kernel keeps the nine numbers in an 8 × 128 array: row 0 the sums, row 1 the sums of squares, row 2 the counts,
  lane j for class j, zero everywhere else — each number placed by multiplying it with the 0/1 indicator of its position.
-/
import proofs.«140613_j68015102099647_1_alg».proof.Proof.Spec

noncomputable section

namespace Cert.ClassVar

open Idealize.ShloMosaic Idealize.ShloMosaic.ValueIdx

/-- A tile of logits and of labels. -/
abbrev SXt : Shape := ⟨4, ![1, 4, 128, 1024]⟩
abbrev STt : Shape := ⟨3, ![1, 128, 1024]⟩

section
variable (x : SXt.Idx → EReal) (t : STt.Idx → BitVec 32)

/-- The four logits and the label of the tile's pixel (r, w). -/
def tpx (r : Fin 128) (w : Fin 1024) : Fin 4 → EReal := fun c => x (ix4 (0 : Fin 1) c r w)
def tlab (r : Fin 128) (w : Fin 1024) : BitVec 32 := t (ix3 (0 : Fin 1) r w)

/-- The tile's count, sum and sum of squares for class `j`. -/
def tcnt (j : Fin 3) : EReal := ∑ r : Fin 128, ∑ w : Fin 1024, mask (tlab t r w) j
def tsm (j : Fin 3) : EReal := ∑ r : Fin 128, ∑ w : Fin 1024, pc (tpx x r w) (tlab t r w) j
def tsq (j : Fin 3) : EReal := ∑ r : Fin 128, ∑ w : Fin 1024, pc (tpx x r w) (tlab t r w) j * pc (tpx x r w) (tlab t r w) j

/-- The 0/1 indicator of position (row `k`, lane `j`) of the 8 × 128 array, read at (r, l). -/
def at_ (k j : Nat) (r : Fin 8) (l : Fin 128) : EReal := if r.val = k ∧ l.val = j then 1 else 0

/-- The tile's nine sums laid out in the 8 × 128 array, read at (r, l): class by class, the sum at row 0, the sum of squares at
    row 1 and the count at row 2 of the class's lane. -/
def tileAcc (r : Fin 8) (l : Fin 128) : EReal :=
  ∑ j : Fin 3, ((at_ 0 j.val r l * tsm x t j + at_ 1 j.val r l * tsq x t j) + at_ 2 j.val r l * tcnt t j)

end

end Cert.ClassVar

end
-- ==== Proof.KernelAccum.lean ====
/-
  What the output array holds after the region. The output's 8 × 128 slab of batch entry `b` is visited by the eight points
  `8 b … 8 b + 7`: the first stores the tile's nine sums over zeros, each later one adds its tile's to what the point before
  left, and the slab is written back after the eighth. So entry `b` of the array ends at the sum, over the eight row tiles of
  the entry, of the tiles' sums — by induction on the point, then the blocks cover the array.
-/
import proofs.«140613_j68015102099647_1_alg».proof.Proof.KernelBlocks
import proofs.«140613_j68015102099647_1_alg».proof.Proof.TileSpec

noncomputable section

namespace Cert.KernelIdeal.Acc

open Idealize.ShloMosaic Idealize.ShloMosaic.TcCoe Idealize.SL.Sem Idealize.ShloMosaic.ValueIdx
open Cert.KernelIdeal Cert.KernelIdeal.Gen Cert.ClassVar
open Idealize.ShloMosaic.Pipeline (Dat)

variable (m : (ℓ : Loc nD τ sig) → Buf (Elt Ideal) ℓ)

/-- What the first point of a batch entry leaves in the output's buffer: its tile's sums. -/
def LeavesFirst : Prop :=
  ∀ (c : Dev nD) (i : grid0.Coords) (a2 : Memref sig .tc .vmem S1x4x128x1024 .f32) (h2 : a2.IsWhole)
    (a3 : Memref sig .tc .vmem S1x128x1024 .i32) (h3 : a3.IsWhole) (a4 : Memref sig .tc .vmem S1x8x128 .f32) (h4 : a4.IsWhole)
    (hc : cond0_0 i) (x0 : Vec Ideal S1x4x128x1024 .f32) (x1 : Vec Ideal S1x128x1024 .i32) (r : Fin 8) (l : Fin 128),
    out0_A_2 (F := Ideal) c i a2 h2 a3 h3 a4 h4 hc x0 x1 (ix3 (0 : Fin 1) r l) = tileAcc x0 x1 r l

/-- What a later point leaves: what it found plus its tile's sums. -/
def LeavesLater : Prop :=
  ∀ (c : Dev nD) (i : grid0.Coords) (a2 : Memref sig .tc .vmem S1x4x128x1024 .f32) (h2 : a2.IsWhole)
    (a3 : Memref sig .tc .vmem S1x128x1024 .i32) (h3 : a3.IsWhole) (a4 : Memref sig .tc .vmem S1x8x128 .f32) (h4 : a4.IsWhole)
    (hc : ¬cond0_0 i) (x0 : Vec Ideal S1x4x128x1024 .f32) (x1 : Vec Ideal S1x128x1024 .i32) (xo : Vec Ideal S1x8x128 .f32)
    (r : Fin 8) (l : Fin 128),
    out0_B_2 (F := Ideal) c i a2 h2 a3 h3 a4 h4 hc x0 x1 xo (ix3 (0 : Fin 1) r l) = xo (ix3 (0 : Fin 1) r l) + tileAcc x0 x1 r l

/-- The sums of the tile of grid point `n` (zero past the grid), laid out in the 8 × 128 array. -/
def tacc (c : Dev nD) (n : ℕ) (r : Fin 8) (l : Fin 128) : EReal :=
  if h : n < cfg0.N then tileAcc (iblk m c 0 ⟨n, h⟩ : Vec Ideal S1x4x128x1024 .f32) (iblk m c 1 ⟨n, h⟩ : Vec Ideal S1x128x1024 .i32) r l else 0

theorem tacc_of_lt (c : Dev nD) (n : ℕ) (h : n < cfg0.N) (r : Fin 8) (l : Fin 128) :
    tacc m c n r l = tileAcc (iblk m c 0 ⟨n, h⟩ : Vec Ideal S1x4x128x1024 .f32) (iblk m c 1 ⟨n, h⟩ : Vec Ideal S1x128x1024 .i32) r l :=
  dif_pos h

/-- THE RUNNING SUM. After point `n` the output's buffer holds the tiles' sums of the points of `n`'s batch entry up to `n`. -/
theorem outsAt_eq (hA : LeavesFirst) (hB : LeavesLater) (c : Dev nD) (r : Fin 8) (l : Fin 128) :
    ∀ (n : ℕ) (h : n < cfg0.N),
      outsAt0 m c n h (ix3 (0 : Fin 1) r l) = ∑ s ∈ Finset.range (n % 8 + 1), tacc m c (n - n % 8 + s) r l
  | 0, h => by
    rw [outsAt0_A m c ⟨0, h⟩ rfl, hA]
    simp only [Nat.zero_mod, Nat.zero_add, Finset.sum_range_one, Nat.sub_self]
    exact (tacc_of_lt m c 0 h r l).symm
  | n + 1, h => by
    by_cases h0 : (n + 1) % 8 = 0
    · rw [outsAt0_A m c ⟨n + 1, h⟩ h0, hA, h0]
      simp only [Nat.zero_add, Finset.sum_range_one, Nat.sub_zero, Nat.add_zero]
      exact (tacc_of_lt m c (n + 1) h r l).symm
    · rw [outsAt0_B m c ⟨n + 1, h⟩ h0, hB]
      show outsAt0 m c n _ (ix3 (0 : Fin 1) r l) + _ = _
      rw [outsAt_eq hA hB c r l n (Nat.lt_of_succ_lt h)]
      have e1 : (n + 1) % 8 = n % 8 + 1 := by omega
      have e2 : n + 1 - (n % 8 + 1) = n - n % 8 := by omega
      rw [e1, e2, Finset.sum_range_succ _ (n % 8 + 1)]
      have e3 : n - n % 8 + (n % 8 + 1) = n + 1 := by omega
      rw [e3, tacc_of_lt m c (n + 1) h r l]

/-- The array the output ends at: entry `b` holds the sum over its eight points of the tiles' sums. -/
def slabs (c : Dev nD) : S16x8x128.Idx → EReal :=
  fun i => ∑ s ∈ Finset.range 8, tacc m c (8 * (i 0).val + s) (i 1) (i 2)

end Cert.KernelIdeal.Acc

end
-- ==== Proof.KernelFinal.lean ====
/-
  The output array after the region. Its slab of batch entry `b` is written back once, after point `8 b + 7`, holding the sum of
  the eight tiles' sums; the sixteen slabs tile the array, so the whole array is that function of the arguments.
-/
import proofs.«140613_j68015102099647_1_alg».proof.Proof.KernelAccum

noncomputable section

namespace Cert.KernelIdeal.Acc

open Idealize.ShloMosaic Idealize.ShloMosaic.TcCoe Idealize.SL.Sem Idealize.ShloMosaic.ValueIdx
open Cert.KernelIdeal Cert.KernelIdeal.Gen Cert.ClassVar
open Idealize.ShloMosaic.Pipeline (Dat)

variable (m : (ℓ : Loc nD τ sig) → Buf (Elt Ideal) ℓ)

/-- The output's block at point `t` is the slab of entry `t / 8`: its index (0, r, l) is the array's (t / 8, r, l). -/
theorem emb2 (t : Fin cfg0.N) (r : Fin 8) (l : Fin 128) :
    ((cfg0.win 2).blk t).view.emb (ix3 (0 : Fin 1) r l) = ix3 (ent t) r l := by
  funext a
  apply Fin.ext
  obtain ⟨h0, h1, h2⟩ := index2 t
  match a with
  | ⟨0, _⟩ => show win0_2.index t 0 * 1 + 1 * 0 = t.val / 8; rw [h0]; omega
  | ⟨1, _⟩ => show win0_2.index t 1 * 8 + 1 * r.val = r.val; rw [h1]; omega
  | ⟨2, _⟩ => show win0_2.index t 2 * 128 + 1 * l.val = l.val; rw [h2]; omega

theorem slabs_ix (c : Dev nD) (b : Fin 16) (r : Fin 8) (l : Fin 128) :
    slabs m c (ix3 b r l) = ∑ s ∈ Finset.range 8, tacc m c (8 * b.val + s) r l := rfl

/-- What the last point of a batch entry writes back is the entry's slab. -/
theorem flushed_eq (hA : LeavesFirst) (hB : LeavesLater) (c : Dev nD) (t : Fin cfg0.N) (hf : (cfg0.win 2).flush t = true) :
    (dats m 0 c).flushed 2 t = ((cfg0.win 2).blk t).view.read (Elt Ideal) (slabs m c) := by
  have h7 : t.val % 8 = 7 := (flush0_2 t).mp hf
  show (cfg0.win 2).cut (grid0.coords t) ((dats m 0 c).after 2 t) = _
  rw [after0_2]
  funext y
  obtain ⟨u, r, l, rfl⟩ : ∃ (u : Fin 1) (r : Fin 8) (l : Fin 128), y = ix3 u r l := ⟨y 0, y 1, y 2, eq_ix3 y⟩
  obtain rfl : u = 0 := Subsingleton.elim _ _
  rw [View.read_apply, emb2, slabs_ix]
  show outsAt0 m c t.val t.isLt (ix3 (0 : Fin 1) r l) = _
  rw [outsAt_eq m hA hB c r l t.val t.isLt, h7]
  have e : t.val - 7 = 8 * (ent t).val := by show t.val - 7 = 8 * (t.val / 8); omega
  rw [e]
  rfl

/-- Every index of the array lies in the block of the last point of its batch entry. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have hi0 : (i 0 : Nat) < 16 := (i 0).isLt
  have hi1 : (i 1 : Nat) < 8 := (i 1).isLt
  have hi2 : (i 2 : Nat) < 128 := (i 2).isLt
  have hN : cfg0.N = 128 := N_0
  have hlt : 8 * (i 0 : Nat) + 7 < cfg0.N := by omega
  refine ⟨⟨8 * (i 0 : Nat) + 7, hlt⟩, (flush0_2 _).mpr (by show (8 * (i 0 : Nat) + 7) % 8 = 7; omega), ?_⟩
  show i ∈ ((View.whole main_v0).slice (win0_2.rect ⟨8 * (i 0 : Nat) + 7, hlt⟩)).set
  rw [View.set_slice_whole, Rect.mem_set_unit]
  intro a
  obtain ⟨h0, h1, h2⟩ := index2 ⟨8 * (i 0 : Nat) + 7, hlt⟩
  match a with
  | ⟨0, _⟩ =>
    show win0_2.index ⟨8 * (i 0 : Nat) + 7, hlt⟩ 0 * 1 ≤ (i 0 : Nat) ∧ (i 0 : Nat) < win0_2.index ⟨8 * (i 0 : Nat) + 7, hlt⟩ 0 * 1 + 1
    rw [h0]; show (8 * (i 0 : Nat) + 7) / 8 * 1 ≤ (i 0 : Nat) ∧ (i 0 : Nat) < (8 * (i 0 : Nat) + 7) / 8 * 1 + 1; omega
  | ⟨1, _⟩ =>
    show win0_2.index ⟨8 * (i 0 : Nat) + 7, hlt⟩ 1 * 8 ≤ (i 1 : Nat) ∧ (i 1 : Nat) < win0_2.index ⟨8 * (i 0 : Nat) + 7, hlt⟩ 1 * 8 + 8
    rw [h1]; omega
  | ⟨2, _⟩ =>
    show win0_2.index ⟨8 * (i 0 : Nat) + 7, hlt⟩ 2 * 128 ≤ (i 2 : Nat) ∧ (i 2 : Nat) < win0_2.index ⟨8 * (i 0 : Nat) + 7, hlt⟩ 2 * 128 + 128
    rw [h2]; omega

/-- THE OUTPUT ARRAY after the region. -/
theorem final (hA : LeavesFirst) (hB : LeavesLater) (c : Dev nD) : (dats m 0 c).arrAt 2 cfg0.N = slabs m c :=
  (dats m 0 c).arrAt_eq_of_cover 2 (slabs m c) (flushed_eq m hA hB c) (fun i => cover c i)

end Cert.KernelIdeal.Acc

end
-- ==== Proof.KernelSums.lean ====
/-
  From tiles to whole rows. Row `k`, lane `j` of a tile's 8 × 128 layout is the tile's sum (k = 0), sum of squares (k = 1) or
  count (k = 2) for class `j`; a tile's pixel (row, w) at point `8 b + s` is the array's pixel (b, 128 s + row, w); and eight tiles
  of 128 rows are the 1024 rows of the entry. So the slab of entry `b` holds, at (k, j), the entry's sum over all its pixels.
-/
import proofs.«140613_j68015102099647_1_alg».proof.Proof.KernelAccum

noncomputable section

namespace Cert.KernelIdeal.Acc

open Idealize.ShloMosaic Idealize.ShloMosaic.TcCoe Idealize.SL.Sem Idealize.ShloMosaic.ValueIdx
open Cert.KernelIdeal Cert.KernelIdeal.Gen Cert.ClassVar
open Idealize.ShloMosaic.Pipeline (Dat)

/-! ## Reading the layout -/

/-- Row `k`, lane `j` of the layout holds the `k`-th of the class's three numbers: the other eight positions' indicators vanish. -/
theorem tileAcc_at (x : SXt.Idx → EReal) (t : STt.Idx → BitVec 32) (k : Fin 3) (j : Fin 3) (a b c : EReal)
    (ha : a = tsm x t j) (hb : b = tsq x t j) (hc : c = tcnt t j) :
    tileAcc x t ⟨k.val, by omega⟩ ⟨j.val, by omega⟩ = if k.val = 0 then a else if k.val = 1 then b else c := by
  subst ha hb hc
  unfold tileAcc
  rw [Finset.sum_eq_single j (fun j' _ hne => ?_) (fun h => absurd (Finset.mem_univ j) h)]
  · have e0 : at_ 0 j.val ⟨k.val, by omega⟩ ⟨j.val, by omega⟩ = if k.val = 0 then 1 else 0 := by
      unfold at_; exact if_congr (and_iff_left rfl) rfl rfl
    have e1 : at_ 1 j.val ⟨k.val, by omega⟩ ⟨j.val, by omega⟩ = if k.val = 1 then 1 else 0 := by
      unfold at_; exact if_congr (and_iff_left rfl) rfl rfl
    have e2 : at_ 2 j.val ⟨k.val, by omega⟩ ⟨j.val, by omega⟩ = if k.val = 2 then 1 else 0 := by
      unfold at_; exact if_congr (and_iff_left rfl) rfl rfl
    rw [e0, e1, e2]
    have hk : k.val = 0 ∨ k.val = 1 ∨ k.val = 2 := by omega
    rcases hk with h | h | h <;> simp [h]
  · have hv : ¬(j.val = j'.val) := fun e => hne (Fin.ext e.symm)
    have z : ∀ q : Nat, at_ q j'.val ⟨k.val, by omega⟩ ⟨j.val, by omega⟩ = 0 := fun q => by
      unfold at_; exact if_neg (fun h => hv h.2)
    rw [z 0, z 1, z 2, zero_mul, zero_mul, zero_mul, add_zero, add_zero]

/-! ## Eight tiles of 128 rows are 1024 rows -/

theorem sum_tiles {M : Type*} [AddCommMonoid M] (g : Fin 1024 → M) :
    ∑ s : Fin 8, ∑ row : Fin 128, g ⟨128 * s.val + row.val, by omega⟩ = ∑ r : Fin 1024, g r := by
  rw [← Fintype.sum_prod_type']
  exact Fintype.sum_equiv ((finProdFinEquiv (m := 8) (n := 128)).trans (finCongr (by norm_num)))
    (fun p => g ⟨128 * p.1.val + p.2.val, by omega⟩) g
    (fun p => congrArg g (Fin.ext (by show 128 * p.1.val + p.2.val = p.2.val + 128 * p.1.val; omega)))

variable (m : (ℓ : Loc nD τ sig) → Buf (Elt Ideal) ℓ)

/-! ## A tile's pixels are the array's -/

/-- Point `8 b + s` of the grid. -/
def pt (b : Fin 16) (s : Fin 8) : Fin cfg0.N := ⟨8 * b.val + s.val, by rw [show cfg0.N = 128 from N_0]; omega⟩

theorem ent_pt (b : Fin 16) (s : Fin 8) : ent (pt b s) = b := Fin.ext (by show (8 * b.val + s.val) / 8 = b.val; omega)
theorem arow_pt (b : Fin 16) (s : Fin 8) (row : Fin 128) : arow (pt b s) row = ⟨128 * s.val + row.val, by omega⟩ :=
  Fin.ext (by show 128 * ((8 * b.val + s.val) % 8) + row.val = 128 * s.val + row.val; omega)

theorem tpx_pt (c : Dev nD) (b : Fin 16) (s : Fin 8) (row : Fin 128) (w : Fin 1024) :
    tpx (iblk m c 0 (pt b s) : Vec Ideal S1x4x128x1024 .f32) row w
      = px (V m c main_arg0) b ⟨128 * s.val + row.val, by omega⟩ w := by
  funext ch
  show (iblk m c 0 (pt b s) : Vec Ideal S1x4x128x1024 .f32) (ix4 (0 : Fin 1) ch row w) = _
  rw [iblk0_apply m c (pt b s) ch row w, ent_pt, arow_pt]
  rfl

theorem tlab_pt (c : Dev nD) (b : Fin 16) (s : Fin 8) (row : Fin 128) (w : Fin 1024) :
    tlab (iblk m c 1 (pt b s) : Vec Ideal S1x128x1024 .i32) row w
      = lab (V m c main_arg1) b ⟨128 * s.val + row.val, by omega⟩ w := by
  show (iblk m c 1 (pt b s) : Vec Ideal S1x128x1024 .i32) (ix3 (0 : Fin 1) row w) = _
  rw [iblk1_apply m c (pt b s) row w, ent_pt, arow_pt]
  rfl

/-- Any per-pixel quantity summed over the eight tiles of entry `b` is its sum over the entry's 1024 rows. -/
theorem entry_sum (c : Dev nD) (b : Fin 16) (f : (Fin 4 → EReal) → BitVec 32 → EReal) :
    ∑ s : Fin 8, ∑ row : Fin 128, ∑ w : Fin 1024,
        f (tpx (iblk m c 0 (pt b s) : Vec Ideal S1x4x128x1024 .f32) row w) (tlab (iblk m c 1 (pt b s) : Vec Ideal S1x128x1024 .i32) row w)
      = ∑ r : Fin 1024, ∑ w : Fin 1024, f (px (V m c main_arg0) b r w) (lab (V m c main_arg1) b r w) := by
  rw [← sum_tiles (fun r => ∑ w : Fin 1024, f (px (V m c main_arg0) b r w) (lab (V m c main_arg1) b r w))]
  refine Finset.sum_congr rfl fun s _ => Finset.sum_congr rfl fun row _ => Finset.sum_congr rfl fun w _ => ?_
  rw [tpx_pt, tlab_pt]

/-- The slab of entry `b` as a sum over the entry's eight points. -/
theorem slabs_pt (c : Dev nD) (b : Fin 16) (r : Fin 8) (l : Fin 128) :
    slabs m c (ix3 b r l) = ∑ s : Fin 8, tileAcc (iblk m c 0 (pt b s) : Vec Ideal S1x4x128x1024 .f32) (iblk m c 1 (pt b s) : Vec Ideal S1x128x1024 .i32) r l := by
  show ∑ s ∈ Finset.range 8, tacc m c (8 * b.val + s) r l = _
  rw [Finset.sum_range]
  exact Finset.sum_congr rfl fun s _ => tacc_of_lt m c (8 * b.val + s.val) (pt b s).isLt r l

/-- THE SLAB READ: at row `k`, lane `j` the slab of entry `b` holds the entry's sum, sum of squares or count for class `j`. -/
theorem slabs_at (c : Dev nD) (b : Fin 16) (k : Fin 3) (j : Fin 3) :
    slabs m c (ix3 b ⟨k.val, by omega⟩ ⟨j.val, by omega⟩)
      = if k.val = 0 then ∑ r : Fin 1024, ∑ w : Fin 1024, pc (px (V m c main_arg0) b r w) (lab (V m c main_arg1) b r w) j
        else if k.val = 1 then ∑ r : Fin 1024, ∑ w : Fin 1024,
          pc (px (V m c main_arg0) b r w) (lab (V m c main_arg1) b r w) j * pc (px (V m c main_arg0) b r w) (lab (V m c main_arg1) b r w) j
        else ∑ r : Fin 1024, ∑ w : Fin 1024, mask (lab (V m c main_arg1) b r w) j := by
  rw [slabs_pt]
  have hk : k.val = 0 ∨ k.val = 1 ∨ k.val = 2 := by omega
  rcases hk with h | h | h
  · rw [if_pos h, ← entry_sum m c b (fun x t => pc x t j)]
    refine Finset.sum_congr rfl fun s _ => ?_
    rw [tileAcc_at _ _ k j _ _ _ rfl rfl rfl, if_pos h]; rfl
  · rw [if_neg (by omega), if_pos h, ← entry_sum m c b (fun x t => pc x t j * pc x t j)]
    refine Finset.sum_congr rfl fun s _ => ?_
    rw [tileAcc_at _ _ k j _ _ _ rfl rfl rfl, if_neg (by omega), if_pos h]; rfl
  · rw [if_neg (by omega), if_neg (by omega), ← entry_sum m c b (fun _ t => mask t j)]
    refine Finset.sum_congr rfl fun s _ => ?_
    rw [tileAcc_at _ _ k j _ _ _ rfl rfl rfl, if_neg (by omega), if_neg (by omega)]; rfl

end Cert.KernelIdeal.Acc

end
-- ==== Proof.KernelTail.lean ====
/-
  The host operations after the region. They add the sixteen slabs into one 8 × 128 array, take lanes 0‥2 of rows 0, 1 and 2 as the
  three classes' sums `S`, sums of squares `Q` and counts `N`, and compute, class by class,
  `μ = S / (N + ε)`, `v = ((Q − (2 μ) S) + (μ μ) N) / (N + ε)`, keep `v` where `0 < N`, add the three and divide by 3.
-/
import proofs.«140613_j68015102099647_1_alg».proof.Proof.KernelFinal
import proofs.«140613_j68015102099647_1_alg».proof.Proof.KernelSums
import Idealize.ShloMosaic.Lib.StableHlo.Run
import Idealize.ShloMosaic.Lib.IdealHost
import Idealize.ShloMosaic.Lib.ValueLayout
import Idealize.ShloMosaic.PureOps.Ideal.Laws

noncomputable section

namespace Cert.KernelIdeal.Acc

open Idealize.ShloMosaic Idealize.ShloMosaic.TcCoe Idealize.SL.Sem Idealize.ShloMosaic.ValueIdx
open Cert.KernelIdeal Cert.KernelIdeal.Gen Cert.ClassVar Idealize.ShloMosaic.StableHlo

variable [Cert.KernelIdeal.Facts]

/-! ## The tail as a function of the region's output array -/

/-- The sixteen slabs added up. -/
def tot (A : S16x8x128.Idx → EReal) : S8x128.Idx → EReal :=
  Host.reduceAdd (F := Ideal) (φ := .f32) A (constant S_ .f32 0x00000000#32) Facts₀.reducesTo_S16x8x128_S8x128_d0 Facts₀.h_S_

/-- Lanes 0‥2 of rows 0, 1, 2 of the total: the classes' sums, sums of squares and counts. -/
def row0 (A : S16x8x128.Idx → EReal) : S3.Idx → EReal :=
  fun i => shapeCast S3 (extractStridedSlice S1x3 ![0, 0] (tot A) Facts₀.slices_S8x128_S1x3_0_0) Facts₀.shapeCasts_S1x3_S3 i
def row1 (A : S16x8x128.Idx → EReal) : S3.Idx → EReal :=
  fun i => shapeCast S3 (extractStridedSlice S1x3 ![1, 0] (tot A) Facts₀.slices_S8x128_S1x3_1_0) Facts₀.shapeCasts_S1x3_S3 i
def row2 (A : S16x8x128.Idx → EReal) : S3.Idx → EReal :=
  fun i => shapeCast S3 (extractStridedSlice S1x3 ![2, 0] (tot A) Facts₀.slices_S8x128_S1x3_2_0) Facts₀.shapeCasts_S1x3_S3 i

/-- A scalar constant spread over the three classes. -/
def splat3 (b : BitVec 32) : S3.Idx → EReal := broadcastInDim S3 ![] Facts₀.bcast_S_S3 (constant (F := Ideal) S_ .f32 b)

/-- The class means and variances as the tail computes them. -/
def meanV (A : S16x8x128.Idx → EReal) : S3.Idx → EReal :=
  Host.divf (F := Ideal) (φ := .f32) (row0 A) (addf (F := Ideal) (φ := .f32) (row2 A) (splat3 0x358637BD#32))
def varV (A : S16x8x128.Idx → EReal) : S3.Idx → EReal :=
  Host.divf (F := Ideal) (φ := .f32)
    (addf (F := Ideal) (φ := .f32)
      (subf (F := Ideal) (φ := .f32) (row1 A) (mulf (F := Ideal) (φ := .f32) (mulf (F := Ideal) (φ := .f32) (splat3 0x40000000#32) (meanV A)) (row0 A)))
      (mulf (F := Ideal) (φ := .f32) (mulf (F := Ideal) (φ := .f32) (meanV A) (meanV A)) (row2 A)))
    (addf (F := Ideal) (φ := .f32) (row2 A) (splat3 0x358637BD#32))

/-- The program's result. -/
def tailOf (A : S16x8x128.Idx → EReal) : S_.Idx → EReal :=
  Host.divf (F := Ideal) (φ := .f32)
    (Host.reduceAdd (F := Ideal) (φ := .f32)
      (select (cmpf (F := Ideal) (φ := .f32) .ogt (row2 A) (splat3 0x00000000#32)) (varV A) (splat3 0x00000000#32))
      (constant S_ .f32 0x00000000#32) Facts₀.reducesTo_S3_S_d0 Facts₀.h_S_)
    (constant S_ .f32 0x40400000#32)

variable (m : (ℓ : Loc nD τ sig) → Buf (Elt Ideal) ℓ)

/-- What the frame run states of the result buffer is the tail of the region's output array. -/
theorem tail_eq (c : Dev nD) :
    Pipeline.afterTail₀ cfgs (dats m) 0 (V0 m) [hostOps1, hostOps1_1, hostOps1_2] c main_v26
      = tailOf (Pipeline.withArrays (cfgs 0).spec c (V0 m c) (fun w => (dats m 0 c).arrAt w (cfgs 0).N) (Proc.tc.devRef main_v0)) := by
  unfold Pipeline.afterTail₀
  simp only [hostOps1, hostOps1_1, hostOps1_2, List.flatten_cons, List.flatten_nil, List.append_nil, List.cons_append, List.nil_append]
  after_results_simp
  rfl

end Cert.KernelIdeal.Acc

end
-- ==== Proof.KernelTailValue.lean ====
/-
  The tail read at an index. The total at (r, l) is the sum over the sixteen entries of the slabs at (r, l); the three rows are the
  total at rows 0, 1, 2; everything after is pointwise on three numbers, the selection `0 < N` a comparison bit, and the last sum
  is over the three classes.
-/
import proofs.«140613_j68015102099647_1_alg».proof.Proof.KernelTail

noncomputable section

namespace Cert.KernelIdeal.Acc

open Idealize.ShloMosaic Idealize.ShloMosaic.TcCoe Idealize.SL.Sem Idealize.ShloMosaic.ValueIdx
open Cert.KernelIdeal Cert.KernelIdeal.Gen Cert.ClassVar Idealize.ShloMosaic.StableHlo

variable [Cert.KernelIdeal.Facts]

/-- Over (r, l) of the total, the source index with entry `b` inserted is (b, r, l). -/
theorem lift_entry (h : S16x8x128.Reduces [0] S8x128) (r : Fin 8) (l : Fin 128) (b : Fin 16) :
    h.lift (ix2 r l) b = ix3 b r l := by
  funext c
  apply Fin.ext
  match c with
  | ⟨0, _⟩ => rfl
  | ⟨1, _⟩ => rfl
  | ⟨2, _⟩ => rfl

/-- The total at (r, l): the sixteen slabs' entries added. -/
theorem tot_apply (A : S16x8x128.Idx → EReal) (r : Fin 8) (l : Fin 128) :
    tot A (ix2 r l) = ∑ b : Fin 16, A (ix3 b r l) := by
  have hR : S16x8x128.Reduces [0] S8x128 := by decide
  unfold tot
  rw [hostReduceAdd_apply, Ideal.hostReduceAdd_single Facts₀.reducesTo_S16x8x128_S8x128_d0 hR]
  show Ideal.ofBits .f32 0x00000000#32 + ∑ b : Fin 16, A (hR.lift (ix2 r l) b) = _
  rw [Ideal.ofBits_zero_f32, zero_add]
  exact Finset.sum_congr rfl fun b _ => congrArg A (lift_entry hR r l b)

/-- Row `k` of the total, lane `j`. -/
theorem row0_apply (A : S16x8x128.Idx → EReal) (j : Fin 3) :
    row0 A (ix1 j) = tot A (ix2 (0 : Fin 8) (⟨j.val, by omega⟩ : Fin 128)) := by
  unfold row0
  refine (shapeCast_1a_a_apply _ _ j).trans ?_
  exact extractStridedSlice_apply _ _ _ _ _ (fun a => match a with
    | ⟨0, _⟩ => rfl
    | ⟨1, _⟩ => (Nat.zero_add _).symm)
theorem row1_apply (A : S16x8x128.Idx → EReal) (j : Fin 3) :
    row1 A (ix1 j) = tot A (ix2 (1 : Fin 8) (⟨j.val, by omega⟩ : Fin 128)) := by
  unfold row1
  refine (shapeCast_1a_a_apply _ _ j).trans ?_
  exact extractStridedSlice_apply _ _ _ _ _ (fun a => match a with
    | ⟨0, _⟩ => rfl
    | ⟨1, _⟩ => (Nat.zero_add _).symm)
theorem row2_apply (A : S16x8x128.Idx → EReal) (j : Fin 3) :
    row2 A (ix1 j) = tot A (ix2 (2 : Fin 8) (⟨j.val, by omega⟩ : Fin 128)) := by
  unfold row2
  refine (shapeCast_1a_a_apply _ _ j).trans ?_
  exact extractStridedSlice_apply _ _ _ _ _ (fun a => match a with
    | ⟨0, _⟩ => rfl
    | ⟨1, _⟩ => (Nat.zero_add _).symm)

theorem splat3_apply (b : BitVec 32) (i : S3.Idx) : splat3 b i = Ideal.ofBits .f32 b := rfl

theorem meanV_apply (A : S16x8x128.Idx → EReal) (i : S3.Idx) :
    meanV A i = Ideal.div (row0 A i) (row2 A i + eps) := rfl

theorem varV_apply (A : S16x8x128.Idx → EReal) (i : S3.Idx) :
    varV A i = Ideal.div ((row1 A i - (two * meanV A i) * row0 A i) + (meanV A i * meanV A i) * row2 A i) (row2 A i + eps) := rfl

/-- Keeping `v` where the comparison bit of `0 < n` is set is `pick`. -/
theorem select_gt_zero (n v : EReal) :
    Scalar.select (Ideal.cmp .ogt n (Ideal.ofBits .f32 0x00000000#32)) v (Ideal.ofBits .f32 0x00000000#32) = pick n v := by
  rw [Ideal.ofBits_zero_f32]
  unfold Scalar.select Ideal.cmp pick
  by_cases h : (0 : EReal) < n
  · rw [if_pos h]; simp [h]
  · rw [if_neg h]; simp [h]

/-- A sum over the indices of a length-3 array is the sum over its three positions. -/
theorem sum_idx3 {M : Type*} [AddCommMonoid M] (f : S3.Idx → M) : ∑ i : S3.Idx, f i = ∑ j : Fin 3, f (ix1 j) :=
  Fintype.sum_equiv ⟨fun i => i 0, fun j => ix1 j, fun i => (eq_ix1 i).symm, fun _ => rfl⟩ f (fun j => f (ix1 j))
    (fun i => congrArg f (eq_ix1 i))

/-- THE TAIL'S VALUE from the column sums `S`, `Q`, `N` of the slabs at rows 0, 1, 2 and lanes 0‥2. -/
theorem tail_value (A : S16x8x128.Idx → EReal) (S Q N : Fin 3 → EReal)
    (hS : ∀ j : Fin 3, ∑ b : Fin 16, A (ix3 b (0 : Fin 8) (⟨j.val, by omega⟩ : Fin 128)) = S j)
    (hQ : ∀ j : Fin 3, ∑ b : Fin 16, A (ix3 b (1 : Fin 8) (⟨j.val, by omega⟩ : Fin 128)) = Q j)
    (hN : ∀ j : Fin 3, ∑ b : Fin 16, A (ix3 b (2 : Fin 8) (⟨j.val, by omega⟩ : Fin 128)) = N j) (i : S_.Idx) :
    tailOf A i = Ideal.div (∑ j : Fin 3, pick (N j)
      (Ideal.div ((Q j - (two * Ideal.div (S j) (N j + eps)) * S j) + (Ideal.div (S j) (N j + eps) * Ideal.div (S j) (N j + eps)) * N j)
        (N j + eps))) three := by
  unfold tailOf
  show Ideal.div (Host.reduceAdd (F := Ideal) (φ := .f32) _ _ Facts₀.reducesTo_S3_S_d0 Facts₀.h_S_ i) three = _
  rw [hostReduceAdd_apply, Ideal.hostReduceAdd_total Facts₀.reducesTo_S3_S_d0 (fun b => b.elim0)]
  show Ideal.div (Ideal.ofBits .f32 0x00000000#32 + _) three = _
  rw [Ideal.ofBits_zero_f32, zero_add, sum_idx3]
  refine congrArg (fun z => Ideal.div z three) (Finset.sum_congr rfl fun j _ => ?_)
  show Scalar.select (Ideal.cmp .ogt (row2 A (ix1 j)) (Ideal.ofBits .f32 0x00000000#32)) (varV A (ix1 j)) (Ideal.ofBits .f32 0x00000000#32) = _
  rw [select_gt_zero, varV_apply, meanV_apply, row0_apply, row1_apply, row2_apply, tot_apply, tot_apply, tot_apply, hS, hQ, hN]

end Cert.KernelIdeal.Acc

end
-- ==== Proof.KernelRun.lean ====
/-
  The idealized kernel's run, read: the result buffer ends at `outSums` of the argument arrays, the arguments unchanged.
  The slabs' column sums at rows 0, 1, 2 and lanes 0‥2 are the whole-array sum, sum of squares and count per class, so the tail's
  value is the specification's formula from the three sums.
-/
import proofs.«140613_j68015102099647_1_alg».proof.Proof.KernelTailValue

noncomputable section

namespace Cert.KernelIdeal.Acc

open Idealize.ShloMosaic Idealize.ShloMosaic.TcCoe Idealize.SL.Sem Idealize.ShloMosaic.ValueIdx
open Cert.KernelIdeal Cert.KernelIdeal.Gen Cert.ClassVar Idealize.ShloMosaic.StableHlo
open Idealize.ShloMosaic.Pipeline (Dat)

variable (m : (ℓ : Loc nD τ sig) → Buf (Elt Ideal) ℓ) (ρ : Dev nD → PrngReg)

/-- The output array as the tail finds it is the array of slabs. -/
theorem region_array (hA : LeavesFirst) (hB : LeavesLater) (c : Dev nD) :
    Pipeline.withArrays (cfgs 0).spec c (V0 m c) (fun w => (dats m 0 c).arrAt w (cfgs 0).N) (Proc.tc.devRef main_v0) = slabs m c :=
  (Pipeline.withArrays_arr spec0 launch0.win.arr_inj c _ _ 2).trans (final m hA hB c)

/-- The slabs' column sums are the whole-array sums. -/
theorem col_sm (c : Dev nD) (j : Fin 3) :
    ∑ b : Fin 16, slabs m c (ix3 b (0 : Fin 8) (⟨j.val, by omega⟩ : Fin 128)) = sm (V m c main_arg0) (V m c main_arg1) j := by
  unfold sm
  exact Finset.sum_congr rfl fun b _ => (slabs_at m c b 0 j).trans (if_pos rfl)
theorem col_sq (c : Dev nD) (j : Fin 3) :
    ∑ b : Fin 16, slabs m c (ix3 b (1 : Fin 8) (⟨j.val, by omega⟩ : Fin 128)) = ClassVar.sq (V m c main_arg0) (V m c main_arg1) j := by
  unfold ClassVar.sq
  exact Finset.sum_congr rfl fun b _ => (slabs_at m c b 1 j).trans ((if_neg (by decide)).trans (if_pos rfl))
theorem col_cnt (c : Dev nD) (j : Fin 3) :
    ∑ b : Fin 16, slabs m c (ix3 b (2 : Fin 8) (⟨j.val, by omega⟩ : Fin 128)) = cnt (V m c main_arg1) j := by
  unfold cnt
  exact Finset.sum_congr rfl fun b _ => (slabs_at m c b 2 j).trans ((if_neg (by decide)).trans (if_neg (by decide)))

/-- THE RESULT BUFFER after the tail. -/
theorem result_eq (hA : LeavesFirst) (hB : LeavesLater) (c : Dev nD) :
    Pipeline.afterTail₀ cfgs (dats m) 0 (V0 m) [hostOps1, hostOps1_1, hostOps1_2] c main_v26
      = fun _ => outSums (V m c main_arg0) (V m c main_arg1) := by
  rw [tail_eq, region_array m hA hB c]
  funext i
  rw [tail_value (slabs m c) _ _ _ (col_sm m c) (col_sq m c) (col_cnt m c) i]
  rfl

/-- The result buffer bypasses the region. -/
theorem result_mem : main_v26 ∈ Pipeline.restRefs sig (cfgs 0).spec :=
  Pipeline.mem_restRefs_of main_v26 rfl (fun w => by fin_cases w <;> decide)

/-- THE RUN, READ. -/
theorem run (hA : LeavesFirst) (hB : LeavesLater) :
    θ_run defs (onTc (τ := τ) (main (F := Ideal))) ⟨m, fun _ => 0, ρ⟩ fun r => ∀ c : Dev nD,
      r.2.mem ((c.tc : Thread nD τ).loc main_v26)
          = (fun _ => outSums (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v26 result_mem).trans (result_eq m hA hB c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Acc

end
-- ==== Proof.TileBody.lean ====
/-
  What one grid point leaves in the 8 × 128 accumulator block, as one pure term.

  The body loads the tile of logits and the tile of labels, computes from them the 8 × 128 array of the tile's nine sums
  (`contribution`), and adds it to what the block holds: on the first tile of a batch entry that is the zero block the body
  has just stored there, on every other tile it is what the tile before left. Here the stores the body's run finds are read
  back as that term; the arithmetic inside it is read in the modules that follow.
-/
import proofs.«140613_j68015102099647_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Tile

open Cert.KernelIdeal Cert.KernelIdeal.Gen

variable {F : FTy → Type} [FloatOps F]

theorem hz3 : (![0, 0, 0] : Fin 3 → Nat) = fun _ => 0 := funext fun a => by fin_cases a <;> rfl

theorem hz4 : (![0, 0, 0, 0] : Fin 4 → Nat) = fun _ => 0 := funext fun a => by fin_cases a <;> rfl

/-- The accumulator block `acc` after the tile `(x0, x1)` is added: on the array's row and lane coordinates (the two iotas)
    class 1's three sums are placed first, then class 2's, then class 3's, and the whole is added to `acc`. -/
def body (x0 : Vec F S1x4x128x1024 .f32) (x1 : Vec F S1x128x1024 .i32) (acc : Vec F S1x8x128 .f32) : FVec F S1x8x128 .f32 :=
  k0_pay2 (iota Kind.tc S8x128 32 [0] iota_S8x128_d0_w32) (iota Kind.tc S8x128 32 [1] iota_S8x128_d1_w32)
    (k0_pay20 (iota Kind.tc S8x128 32 [0] iota_S8x128_d0_w32) (iota Kind.tc S8x128 32 [1] iota_S8x128_d1_w32)
      (k0_pay13 (iota Kind.tc S8x128 32 [0] iota_S8x128_d0_w32) (iota Kind.tc S8x128 32 [1] iota_S8x128_d1_w32) k0_pay5 (k0_pay8 x0 x1) (k0_pay9 x0 x1) (k0_pay10 x1) k0_pay11 k0_pay12)
      (k0_pay16 (k0_pay3 x1) (k0_pay4 x0)) (k0_pay17 (k0_pay3 x1) (k0_pay4 x0)) (k0_pay18 (k0_pay3 x1)) k0_pay19)
    (k0_pay23 (k0_pay3 x1) (k0_pay4 x0)) (k0_pay24 (k0_pay3 x1) (k0_pay4 x0)) (k0_pay25 (k0_pay3 x1)) acc

/-- A tile that is not the first of its batch entry: the block held `xo2`; the body's one store covers it with `body x0 x1 xo2`. -/
theorem out_B_body (c : Dev nD) (i : grid0.Coords) (arg2 : Memref sig .tc .vmem S1x4x128x1024 .f32) (harg2 : arg2.IsWhole) (arg3 : Memref sig .tc .vmem S1x128x1024 .i32) (harg3 : arg3.IsWhole) (arg4 : Memref sig .tc .vmem S1x8x128 .f32) (harg4 : arg4.IsWhole) (hc0 : ¬cond0_0 i)
    (x0 : Vec F S1x4x128x1024 .f32) (x1 : Vec F S1x128x1024 .i32) (xo2 : Vec F S1x8x128 .f32) :
    out0_B_2 c i arg2 harg2 arg3 harg3 arg4 harg4 hc0 x0 x1 xo2 = body x0 x1 xo2 := by
  unfold out0_B_2
  rw [View.read_writes_eq_canon _ _ _ (cover0_B_2 c i arg2 harg2 arg3 harg3 arg4 harg4 hc0 x0 x1 xo2)]
  unfold kernelRun0_B
  dsimp only
  sl_unfold_words
  rw [View.canon_unit_zero hz3]
  simp only [View.readAt_eq_ld, harg2.read_unread, harg3.read_unread, harg4.read_unread,
    View.ld_unit_zero (S := S1x4x128x1024) hz4, View.ld_unit_zero (S := S1x128x1024) hz3, View.ld_unit_zero (S := S1x8x128) hz3]
  rfl

/-- The first tile of a batch entry: the body stores the zero block, reads it back, and its last store covers the block with
    `body x0 x1` of that zero block. -/
theorem out_A_body (c : Dev nD) (i : grid0.Coords) (arg2 : Memref sig .tc .vmem S1x4x128x1024 .f32) (harg2 : arg2.IsWhole) (arg3 : Memref sig .tc .vmem S1x128x1024 .i32) (harg3 : arg3.IsWhole) (arg4 : Memref sig .tc .vmem S1x8x128 .f32) (harg4 : arg4.IsWhole) (hc0 : cond0_0 i)
    (x0 : Vec F S1x4x128x1024 .f32) (x1 : Vec F S1x128x1024 .i32) :
    out0_A_2 c i arg2 harg2 arg3 harg3 arg4 harg4 hc0 x0 x1 = body x0 x1 k0_pay1 := by
  unfold out0_A_2
  rw [View.read_writes_eq_canon _ _ _ (cover0_A_2 c i arg2 harg2 arg3 harg3 arg4 harg4 hc0 x0 x1)]
  unfold kernelRun0_A
  dsimp only
  sl_unfold_words
  rw [View.canon_cons_unit_zero (S := S1x8x128) hz3, View.readCov_unit_zero (S := S1x8x128) _ hz3]
  simp only [View.readAt_eq_ld, harg2.read_unread, harg3.read_unread,
    View.ld_unit_zero (S := S1x4x128x1024) hz4, View.ld_unit_zero (S := S1x128x1024) hz3, View.ld_unit_zero (S := S1x8x128) hz3]
  rfl

end Cert.KernelIdeal.Tile

end
-- ==== Proof.TileSoftmax.lean ====
/-
  The softmax of a tile, pixel by pixel.

  The body views the tile of logits as [4, 128, 1024], takes the maximum over the four channels, subtracts it, exponentiates,
  sums the four exponentials and divides. Read at channel `c` of pixel `(r, w)` this is the specification's `prob` of the
  pixel's four logits: the maximum over the channel axis is the fold of `max` from -∞ over the four logits, the sum over the
  channel axis is the sum of the four exponentials, and the casts and the broadcast between them only re-index.
-/
import proofs.«140613_j68015102099647_1_alg».proof.Proof.Gen.KernelIdeal.Skeleton
import proofs.«140613_j68015102099647_1_alg».proof.Proof.TileSpec
import Idealize.ShloMosaic.Lib.ValueLayout
import Idealize.ShloMosaic.PureOps.Ideal.Laws

noncomputable section

open Idealize.ShloMosaic Idealize.ShloMosaic.ValueIdx

namespace Cert.KernelIdeal.Tile

open Cert.KernelIdeal Cert.KernelIdeal.Gen Cert.ClassVar

/-- The word of -∞. -/
theorem ofBits_neg_inf : Ideal.ofBits .f32 0xFF800000#32 = ⊥ := by simp [Ideal.ofBits, Ideal.ieee]

/-- Over pixel `(r, w)`, channel `k` of the [4, 128, 1024] view is the index `(k, r, w)`. -/
theorem lift_chan (h : S4x128x1024.Reduces [0] S128x1024) (r : Fin 128) (w : Fin 1024) (k : Fin 4) :
    h.lift (ix2 r w) k = ix3 k r w := by
  funext c
  match c with
  | ⟨0, _⟩ => rfl
  | ⟨1, _⟩ => rfl
  | ⟨2, _⟩ => rfl

/-- A [128, 1024] array viewed [1, 128, 1024] and repeated over four channels reads, at `(c, r, w)`, the array at `(r, w)`. -/
theorem spread_apply (v : FVec Ideal S128x1024 .f32) (c : Fin 4) (r : Fin 128) (w : Fin 1024) :
    broadcastTo S4x128x1024 (shapeCast S1x128x1024 v shapeCasts_S128x1024_S1x128x1024) broadcasts_S1x128x1024_S4x128x1024 (ix3 c r w)
      = v (ix2 r w) := by
  refine (broadcastTo_apply _ _ (ix3 c r w) (ix3 (0 : Fin 1) r w) fun a => ?_).trans
    (shapeCast_ab_1ab_apply v shapeCasts_S128x1024_S1x128x1024 (0 : Fin 1) r w)
  match a with
  | ⟨0, _⟩ => rfl
  | ⟨1, _⟩ => rfl
  | ⟨2, _⟩ => rfl

/-- The [4, 128, 1024] view of the tile reads, at `(c, r, w)`, logit `c` of pixel `(r, w)`. -/
theorem view_apply (x0 : Vec Ideal S1x4x128x1024 .f32) (c : Fin 4) (r : Fin 128) (w : Fin 1024) :
    shapeCast S4x128x1024 x0 shapeCasts_S1x4x128x1024_S4x128x1024 (ix3 c r w) = tpx x0 r w c :=
  shapeCast_1abc_abc_apply x0 shapeCasts_S1x4x128x1024_S4x128x1024 c r w

/-- The maximum over the channel axis, at pixel `(r, w)`, is the largest of its four logits. -/
theorem chanMax_apply (x0 : Vec Ideal S1x4x128x1024 .f32) (hφ : FKind.Formats .f32)
    (hacc : (0xFF800000#32 : BitVec 32) = 0xFF800000#32) (r : Fin 128) (w : Fin 1024) :
    multiReduction (F := Ideal) .maximumf [0] S128x1024 (shapeCast S4x128x1024 x0 shapeCasts_S1x4x128x1024_S4x128x1024)
      0xFF800000#32 reduces_S4x128x1024_S128x1024 hφ hacc (ix2 r w) = pmax (tpx x0 r w) := by
  refine (Ideal.multiReduction_maximumf_single _ _ reduces_S4x128x1024_S128x1024 hφ hacc (ix2 r w)).trans ?_
  have e2 : ((shapeCast S4x128x1024 x0 shapeCasts_S1x4x128x1024_S4x128x1024) ∘ reduces_S4x128x1024_S128x1024.lift (ix2 r w))
      = tpx x0 r w := funext fun (k : Fin 4) =>
    (congrArg (shapeCast S4x128x1024 x0 shapeCasts_S1x4x128x1024_S4x128x1024) (lift_chan _ r w k)).trans (view_apply x0 k r w)
  unfold pmax
  exact (congrArg (fun b => Finset.univ.fold max b _) ofBits_neg_inf).trans
    (congrArg (fun f => Finset.univ.fold max ⊥ f) e2)

/-- The sum over the channel axis, at pixel `(r, w)`, is the sum of the four channels there. -/
theorem chanSum_apply (e : FVec Ideal S4x128x1024 .f32) (hφ : FKind.Formats .f32)
    (hacc : (0x00000000#32 : BitVec 32) = 0x00000000#32) (r : Fin 128) (w : Fin 1024) :
    multiReduction (F := Ideal) .add [0] S128x1024 e 0x00000000#32 reduces_S4x128x1024_S128x1024 hφ hacc (ix2 r w)
      = ∑ k : Fin 4, e (ix3 k r w) := by
  refine (Ideal.multiReduction_add_single e _ reduces_S4x128x1024_S128x1024 hφ hacc (ix2 r w)).trans ?_
  exact Finset.sum_congr rfl fun k _ => congrArg e (lift_chan _ r w k)

/-- The body's softmax at channel `c` of pixel `(r, w)` is the softmax probability of the pixel's logits. -/
theorem softmax_apply (x0 : Vec Ideal S1x4x128x1024 .f32) (c : Fin 4) (r : Fin 128) (w : Fin 1024) :
    k0_pay4 (F := Ideal) x0 (ix3 c r w) = prob (tpx x0 r w) c := by
  have hexp : ∀ k : Fin 4,
      exp (subf (shapeCast S4x128x1024 x0 shapeCasts_S1x4x128x1024_S4x128x1024)
        (broadcastTo S4x128x1024 (shapeCast S1x128x1024
          (multiReduction (F := Ideal) .maximumf [0] S128x1024 (shapeCast S4x128x1024 x0 shapeCasts_S1x4x128x1024_S4x128x1024)
            0xFF800000#32 reduces_S4x128x1024_S128x1024 (.inl rfl) rfl) shapeCasts_S128x1024_S1x128x1024)
          broadcasts_S1x128x1024_S4x128x1024)) (ix3 k r w) = pexp (tpx x0 r w) k := fun k => by
    show Ideal.exp (_ - _) = Ideal.exp (_ - _)
    rw [spread_apply, chanMax_apply, view_apply]
  unfold k0_pay4
  show Ideal.div _ _ = Ideal.div _ _
  rw [hexp c, spread_apply, chanSum_apply]
  unfold pden
  exact congrArg (Ideal.div _) (Finset.sum_congr rfl fun k _ => hexp k)

end Cert.KernelIdeal.Tile

end
-- ==== Proof.TileMask.lean ====
/-
  The class masks of a tile and the masked probabilities, pixel by pixel.

  For class label `c` the body compares the labels with `c`, widens the one-bit result to 32 bits and converts it to a float:
  1 where the label is `c`, 0 elsewhere — the specification's `mask`. The masked probability is channel `c` of the softmax,
  cut out as a [1, 128, 1024] slice and viewed [128, 1024], times that mask.
-/
import proofs.«140613_j68015102099647_1_alg».proof.Proof.Gen.KernelIdeal.Skeleton
import proofs.«140613_j68015102099647_1_alg».proof.Proof.TileSpec
import Idealize.ShloMosaic.Lib.ValueLayout
import Idealize.ShloMosaic.PureOps.Ideal.Laws
import Idealize.ShloMosaic.Lib.Affine

noncomputable section

open Idealize.ShloMosaic Idealize.ShloMosaic.ValueIdx

namespace Cert.KernelIdeal.Tile

open Cert.KernelIdeal Cert.KernelIdeal.Gen Cert.ClassVar

/-- A one-bit word widened to 32 bits and converted to a float is 1 if the bit is set and 0 if not. -/
theorem bit_value (b : BitVec 1) :
    FloatOps.sitofp (F := Ideal) .f32 (b.setWidth 32) = if b = 1#1 then (1 : EReal) else 0 := by
  rcases BitVec.eq_zero_or_eq_one b with h | h <;> subst h
  · rw [if_neg (by decide)]
    show ((((0#1 : BitVec 1).setWidth 32).toInt : ℝ) : EReal) = 0
    rw [show ((0#1 : BitVec 1).setWidth 32).toInt = 0 from by decide]; simp
  · rw [if_pos rfl]
    show ((((1#1 : BitVec 1).setWidth 32).toInt : ℝ) : EReal) = 1
    rw [show ((1#1 : BitVec 1).setWidth 32).toInt = 1 from by decide]; simp

/-- The float indicator of "the label is `c`", at any pixel. -/
theorem labelMask_apply (lab : IVec S128x1024 32) (c : BitVec 32) (i : S128x1024.Idx) :
    sitofp (F := Ideal) .f32 (extui 32 (cmpi .eq lab (broadcast S128x1024 c)) natLt_1_32) i
      = if lab i = c then (1 : EReal) else 0 :=
  (bit_value (IntOp.cmpi .eq (lab i) c)).trans (if_congr IntOp.cmpi_eq rfl rfl)

/-- The [128, 1024] view of the tile of labels reads, at `(r, w)`, the label of pixel `(r, w)`. -/
theorem labels_apply (x1 : Vec Ideal S1x128x1024 .i32) (r : Fin 128) (w : Fin 1024) :
    k0_pay3 (F := Ideal) x1 (ix2 r w) = tlab x1 r w :=
  shapeCast_1ab_ab_apply x1 shapeCasts_S1x128x1024_S128x1024 r w

/-- The three masks: of label 1 (computed from the tile of labels itself), of labels 2 and 3 (from its [128, 1024] view). -/
theorem mask1_apply (x1 : Vec Ideal S1x128x1024 .i32) (r : Fin 128) (w : Fin 1024) :
    k0_pay6 (F := Ideal) x1 (ix2 r w) = mask (tlab x1 r w) 0 := by
  unfold k0_pay6
  refine (labelMask_apply _ _ _).trans ?_
  rw [labels_apply]; rfl

theorem mask2_apply (v3 : IVec S128x1024 32) (i : S128x1024.Idx) : k0_pay14 (F := Ideal) v3 i = mask (v3 i) 1 :=
  labelMask_apply v3 2#32 i

theorem mask3_apply (v3 : IVec S128x1024 32) (i : S128x1024.Idx) : k0_pay21 (F := Ideal) v3 i = mask (v3 i) 2 :=
  labelMask_apply v3 3#32 i

/-- Channel `k` of a [4, 128, 1024] array, cut out from offset `o = k` as a [1, 128, 1024] slice and viewed [128, 1024],
    reads at `(r, w)` the array at `(k, r, w)`. -/
theorem chanSlice_apply (p : FVec Ideal S4x128x1024 .f32) (o : Nat) (h : S4x128x1024.Slices ![o, 0, 0] S1x128x1024)
    (k : Fin 4) (hk : k.val = o) (r : Fin 128) (w : Fin 1024) :
    shapeCast S128x1024 (extractStridedSlice S1x128x1024 ![o, 0, 0] p h) shapeCasts_S1x128x1024_S128x1024 (ix2 r w)
      = p (ix3 k r w) := by
  refine (shapeCast_1ab_ab_apply _ shapeCasts_S1x128x1024_S128x1024 r w).trans ?_
  refine extractStridedSlice_apply _ p h (ix3 (0 : Fin 1) r w) (ix3 k r w) fun a => ?_
  match a with
  | ⟨0, _⟩ => show k.val = o + 0; omega
  | ⟨1, _⟩ => show r.val = 0 + r.val; omega
  | ⟨2, _⟩ => show w.val = 0 + w.val; omega

/-- The masked probabilities of the three classes, at pixel `(r, w)`: the softmax's channel times the class mask. -/
theorem pc1_apply (x0 : Vec Ideal S1x4x128x1024 .f32) (x1 : Vec Ideal S1x128x1024 .i32) (r : Fin 128) (w : Fin 1024) :
    k0_pay7 (F := Ideal) x0 x1 (ix2 r w) = k0_pay4 (F := Ideal) x0 (ix3 (chan 0) r w) * mask (tlab x1 r w) 0 := by
  unfold k0_pay7
  exact congrArg₂ (· * ·) (chanSlice_apply _ 1 _ (chan 0) rfl r w) (mask1_apply x1 r w)

theorem pc2_apply (v3 : IVec S128x1024 32) (p : FVec Ideal S4x128x1024 .f32) (r : Fin 128) (w : Fin 1024) :
    k0_pay15 (F := Ideal) v3 p (ix2 r w) = p (ix3 (chan 1) r w) * mask (v3 (ix2 r w)) 1 := by
  unfold k0_pay15
  exact congrArg₂ (· * ·) (chanSlice_apply _ 2 _ (chan 1) rfl r w) (mask2_apply v3 (ix2 r w))

theorem pc3_apply (v3 : IVec S128x1024 32) (p : FVec Ideal S4x128x1024 .f32) (r : Fin 128) (w : Fin 1024) :
    k0_pay22 (F := Ideal) v3 p (ix2 r w) = p (ix3 (chan 2) r w) * mask (v3 (ix2 r w)) 2 := by
  unfold k0_pay22
  exact congrArg₂ (· * ·) (chanSlice_apply _ 3 _ (chan 2) rfl r w) (mask3_apply v3 (ix2 r w))

end Cert.KernelIdeal.Tile

end
-- ==== Proof.TileSums.lean ====
/-
  The nine sums of a tile.

  Each is taken in two steps: first along the lanes (the 1024 columns of a row), then, after the 128 row sums are stood up as a
  [128, 1] column, along the rows. Read at `Ideal` the two steps are the double sum over the tile's pixels, row by row. Applied to
  the masked probabilities, their squares and the masks of the three classes, the results are the specification's `tsm`, `tsq`
  and `tcnt`.
-/
import proofs.«140613_j68015102099647_1_alg».proof.Proof.Gen.KernelIdeal.Skeleton
import proofs.«140613_j68015102099647_1_alg».proof.Proof.TileSpec
import Idealize.ShloMosaic.Lib.ValueLayout
import Idealize.ShloMosaic.PureOps.Ideal.Laws
import proofs.«140613_j68015102099647_1_alg».proof.Proof.TileSoftmax
import proofs.«140613_j68015102099647_1_alg».proof.Proof.TileMask

noncomputable section

open Idealize.ShloMosaic Idealize.ShloMosaic.ValueIdx

namespace Cert.KernelIdeal.Tile

open Cert.KernelIdeal Cert.KernelIdeal.Gen Cert.ClassVar

/-- Over row `r` of a [128, 1024] array, lane `w` is the index `(r, w)`. -/
theorem lift_lane (h : S128x1024.Reduces [1] S128) (r : Fin 128) (w : Fin 1024) : h.lift (ix1 r) w = ix2 r w := by
  funext c
  match c with
  | ⟨0, _⟩ => rfl
  | ⟨1, _⟩ => rfl

/-- In a [128, 1] column, row `r` over the one result index is the index `(r, 0)`. -/
theorem lift_row (h : S128x1.Reduces [0] S1) (u : Fin 1) (r : Fin 128) : h.lift (ix1 u) r = ix2 r u := by
  funext c
  match c with
  | ⟨0, _⟩ => rfl
  | ⟨1, _⟩ => rfl

/-- A [128] array stood up as a [128, 1] column reads, at `(r, u)`, the array at `r`. -/
theorem column_apply (v : FVec Ideal S128 .f32) (r : Fin 128) (u : Fin 1) :
    shapeCast S128x1 v shapeCasts_S128_S128x1 (ix2 r u) = v (ix1 r) :=
  shapeCast_apply v shapeCasts_S128_S128x1 _ _ (by
    have hu : u.val = 0 := by omega
    rw [Shape.rowMajor_val_one, Shape.rowMajor_val_two]
    show r.val = r.val * 1 + u.val
    omega)

/-- The lane sums: at row `r`, the sum of the row's 1024 entries. -/
theorem laneSum_apply (f : FVec Ideal S128x1024 .f32) (hφ : FKind.Formats .f32)
    (hacc : (0x00000000#32 : BitVec 32) = 0x00000000#32) (r : Fin 128) :
    multiReduction (F := Ideal) .add [1] S128 f 0x00000000#32 reduces_S128x1024_S128 hφ hacc (ix1 r)
      = ∑ w : Fin 1024, f (ix2 r w) :=
  (Ideal.multiReduction_add_single f _ reduces_S128x1024_S128 hφ hacc (ix1 r)).trans
    (Finset.sum_congr rfl fun w _ => congrArg f (lift_lane _ r w))

/-- The row sum of a [128, 1] column: at its one index, the sum of the 128 entries. -/
theorem rowSum_apply (g : FVec Ideal S128x1 .f32) (hφ : FKind.Formats .f32)
    (hacc : (0x00000000#32 : BitVec 32) = 0x00000000#32) (u : Fin 1) :
    multiReduction (F := Ideal) .add [0] S1 g 0x00000000#32 reduces_S128x1_S1 hφ hacc (ix1 u)
      = ∑ r : Fin 128, g (ix2 r u) :=
  (Ideal.multiReduction_add_single g _ reduces_S128x1_S1 hφ hacc (ix1 u)).trans
    (Finset.sum_congr rfl fun r _ => congrArg g (lift_row _ u r))

/-- The two steps together: the sum over all pixels of the tile, row by row. -/
theorem total_apply (f : FVec Ideal S128x1024 .f32) (u : Fin 1) :
    multiReduction (F := Ideal) .add [0] S1
        (shapeCast S128x1 (multiReduction (F := Ideal) .add [1] S128 f 0x00000000#32 reduces_S128x1024_S128 (.inl rfl) rfl)
          shapeCasts_S128_S128x1) 0x00000000#32 reduces_S128x1_S1 (.inl rfl) rfl (ix1 u)
      = ∑ r : Fin 128, ∑ w : Fin 1024, f (ix2 r w) :=
  (rowSum_apply _ (.inl rfl) rfl u).trans
    (Finset.sum_congr rfl fun r _ => (column_apply _ r u).trans (laneSum_apply f (.inl rfl) rfl r))

/-- A [1] array viewed [1, 1] reads, at its one index, the array's one entry. -/
theorem cell_apply (v : FVec Ideal S1 .f32) (a b : Fin 1) : shapeCast S1x1 v shapeCasts_S1_S1x1 (ix2 a b) = v (ix1 b) :=
  shapeCast_a_1a_apply v shapeCasts_S1_S1x1 a b

/-- The two steps and the [1, 1] view. -/
theorem total_cell_apply (f : FVec Ideal S128x1024 .f32) (a b : Fin 1) :
    shapeCast S1x1 (multiReduction .add [0] S1 (shapeCast S128x1 (multiReduction .add [1] S128 f 0x00000000#32 reduces_S128x1024_S128 (.inl rfl) rfl) shapeCasts_S128_S128x1) 0x00000000#32 reduces_S128x1_S1 (.inl rfl) rfl) shapeCasts_S1_S1x1 (ix2 a b)
      = ∑ r : Fin 128, ∑ w : Fin 1024, f (ix2 r w) :=
  (cell_apply _ a b).trans (total_apply f b)

variable (x0 : Vec Ideal S1x4x128x1024 .f32) (x1 : Vec Ideal S1x128x1024 .i32)

/-- The masked probabilities of the three classes, at pixel `(r, w)`, in the specification's words. -/
theorem pc1_eq (r : Fin 128) (w : Fin 1024) :
    k0_pay7 (F := Ideal) x0 x1 (ix2 r w) = pc (tpx x0 r w) (tlab x1 r w) 0 :=
  (pc1_apply x0 x1 r w).trans (congrArg (· * mask (tlab x1 r w) 0) (softmax_apply x0 (chan 0) r w))

theorem pc2_eq (r : Fin 128) (w : Fin 1024) :
    k0_pay15 (F := Ideal) (k0_pay3 x1) (k0_pay4 x0) (ix2 r w) = pc (tpx x0 r w) (tlab x1 r w) 1 :=
  (pc2_apply _ _ r w).trans
    (congrArg₂ (· * ·) (softmax_apply x0 (chan 1) r w) (congrArg (mask · 1) (labels_apply x1 r w)))

theorem pc3_eq (r : Fin 128) (w : Fin 1024) :
    k0_pay22 (F := Ideal) (k0_pay3 x1) (k0_pay4 x0) (ix2 r w) = pc (tpx x0 r w) (tlab x1 r w) 2 :=
  (pc3_apply _ _ r w).trans
    (congrArg₂ (· * ·) (softmax_apply x0 (chan 2) r w) (congrArg (mask · 2) (labels_apply x1 r w)))

/-- Class 1 (label 1): the sum, the sum of squares and the count. -/
theorem sum1_eq (a b : Fin 1) : k0_pay8 (F := Ideal) x0 x1 (ix2 a b) = tsm x0 x1 0 := by
  unfold k0_pay8
  exact (total_cell_apply _ a b).trans
    (Finset.sum_congr rfl fun r _ => Finset.sum_congr rfl fun w _ => pc1_eq x0 x1 r w)

theorem sq1_eq (a b : Fin 1) : k0_pay9 (F := Ideal) x0 x1 (ix2 a b) = tsq x0 x1 0 := by
  unfold k0_pay9
  exact (total_cell_apply _ a b).trans
    (Finset.sum_congr rfl fun r _ => Finset.sum_congr rfl fun w _ => congrArg₂ (· * ·) (pc1_eq x0 x1 r w) (pc1_eq x0 x1 r w))

theorem cnt1_eq (a b : Fin 1) : k0_pay10 (F := Ideal) x1 (ix2 a b) = tcnt x1 0 := by
  unfold k0_pay10
  exact (total_cell_apply _ a b).trans
    (Finset.sum_congr rfl fun r _ => Finset.sum_congr rfl fun w _ => mask1_apply x1 r w)

/-- Class 2. -/
theorem sum2_eq (a b : Fin 1) : k0_pay16 (F := Ideal) (k0_pay3 x1) (k0_pay4 x0) (ix2 a b) = tsm x0 x1 1 := by
  unfold k0_pay16
  exact (total_cell_apply _ a b).trans
    (Finset.sum_congr rfl fun r _ => Finset.sum_congr rfl fun w _ => pc2_eq x0 x1 r w)

theorem sq2_eq (a b : Fin 1) : k0_pay17 (F := Ideal) (k0_pay3 x1) (k0_pay4 x0) (ix2 a b) = tsq x0 x1 1 := by
  unfold k0_pay17
  exact (total_cell_apply _ a b).trans
    (Finset.sum_congr rfl fun r _ => Finset.sum_congr rfl fun w _ => congrArg₂ (· * ·) (pc2_eq x0 x1 r w) (pc2_eq x0 x1 r w))

theorem cnt2_eq (a b : Fin 1) : k0_pay18 (F := Ideal) (k0_pay3 x1) (ix2 a b) = tcnt x1 1 := by
  unfold k0_pay18
  exact (total_cell_apply _ a b).trans
    (Finset.sum_congr rfl fun r _ => Finset.sum_congr rfl fun w _ =>
      (mask2_apply _ (ix2 r w)).trans (congrArg (mask · 1) (labels_apply x1 r w)))

/-- Class 3 (its count is handed on as a [1] array; the [1, 1] view is taken where it is placed). -/
theorem sum3_eq (a b : Fin 1) : k0_pay23 (F := Ideal) (k0_pay3 x1) (k0_pay4 x0) (ix2 a b) = tsm x0 x1 2 := by
  unfold k0_pay23
  exact (total_cell_apply _ a b).trans
    (Finset.sum_congr rfl fun r _ => Finset.sum_congr rfl fun w _ => pc3_eq x0 x1 r w)

theorem sq3_eq (a b : Fin 1) : k0_pay24 (F := Ideal) (k0_pay3 x1) (k0_pay4 x0) (ix2 a b) = tsq x0 x1 2 := by
  unfold k0_pay24
  exact (total_cell_apply _ a b).trans
    (Finset.sum_congr rfl fun r _ => Finset.sum_congr rfl fun w _ => congrArg₂ (· * ·) (pc3_eq x0 x1 r w) (pc3_eq x0 x1 r w))

theorem cnt3_eq (b : Fin 1) : k0_pay25 (F := Ideal) (k0_pay3 x1) (ix1 b) = tcnt x1 2 := by
  unfold k0_pay25
  exact (total_apply _ b).trans
    (Finset.sum_congr rfl fun r _ => Finset.sum_congr rfl fun w _ =>
      (mask3_apply _ (ix2 r w)).trans (congrArg (mask · 2) (labels_apply x1 r w)))

end Cert.KernelIdeal.Tile

end
-- ==== Proof.TilePlace.lean ====
/-
  Where the nine sums go in the 8 × 128 array.

  The body builds, from the array's row coordinate and lane coordinate, the 0/1 indicator of one position (row `k`, lane `j`):
  the row equals `k` and the lane equals `j`, both compared as 32-bit words — for coordinates below 8 and 128 the words are
  equal exactly when the numbers are. A number held in a [1, 1] array is repeated over the 8 × 128 array, multiplied by the
  indicator of its position and added on: class 1's three numbers go to lane 0, class 2's to lane 1, class 3's to lane 2, in
  each lane the sum at row 0, the sum of squares at row 1 and the count at row 2. Last, the array is viewed [1, 8, 128] and added to
  what the accumulator block holds.
-/
import proofs.«140613_j68015102099647_1_alg».proof.Proof.Gen.KernelIdeal.Skeleton
import proofs.«140613_j68015102099647_1_alg».proof.Proof.TileSpec
import Idealize.ShloMosaic.Lib.ValueLayout
import Idealize.ShloMosaic.PureOps.Ideal.Laws
import proofs.«140613_j68015102099647_1_alg».proof.Proof.TileMask

noncomputable section

open Idealize.ShloMosaic Idealize.ShloMosaic.ValueIdx

namespace Cert.KernelIdeal.Tile

open Cert.KernelIdeal Cert.KernelIdeal.Gen Cert.ClassVar

/-- The row and lane coordinates of the 8 × 128 array, as 32-bit words. -/
theorem rowIota_apply (r : Fin 8) (l : Fin 128) : (iota Kind.tc S8x128 32 [0] iota_S8x128_d0_w32) (ix2 r l) = BitVec.ofNat 32 r.val :=
  iota_single_apply .tc S8x128 32 (0 : Fin 2) iota_S8x128_d0_w32 (ix2 r l)

theorem laneIota_apply (r : Fin 8) (l : Fin 128) : (iota Kind.tc S8x128 32 [1] iota_S8x128_d1_w32) (ix2 r l) = BitVec.ofNat 32 l.val :=
  iota_single_apply .tc S8x128 32 (1 : Fin 2) iota_S8x128_d1_w32 (ix2 r l)

/-- Two numbers below 2³² are equal exactly when their 32-bit words are. -/
theorem word_eq_iff (n k : Nat) (hn : n < 2 ^ 32) (hk : k < 2 ^ 32) : BitVec.ofNat 32 n = BitVec.ofNat 32 k ↔ n = k := by
  constructor
  · intro h
    have e := congrArg BitVec.toNat h
    simp only [BitVec.toNat_ofNat] at e
    rwa [Nat.mod_eq_of_lt hn, Nat.mod_eq_of_lt hk] at e
  · rintro rfl; rfl

/-- The float indicator of position (row `k`, lane `j`), read at `(r, l)`. -/
theorem onehot_apply (k j : Nat) (hk : k < 2 ^ 32) (hj : j < 2 ^ 32) (r : Fin 8) (l : Fin 128) :
    sitofp (F := Ideal) .f32 (extui 32 (andi (cmpi .eq (iota Kind.tc S8x128 32 [0] iota_S8x128_d0_w32) (broadcast S8x128 (BitVec.ofNat 32 k))) (cmpi .eq (iota Kind.tc S8x128 32 [1] iota_S8x128_d1_w32) (broadcast S8x128 (BitVec.ofNat 32 j)))) natLt_1_32) (ix2 r l)
      = at_ k j r l := by
  refine (bit_value _).trans (if_congr (IntOp.andi_eq_one.trans (and_congr IntOp.cmpi_eq IntOp.cmpi_eq)) rfl rfl) |>.trans ?_
  unfold at_
  refine if_congr (and_congr ?_ ?_) rfl rfl
  · rw [rowIota_apply]; exact word_eq_iff _ _ (by have := r.isLt; omega) hk
  · rw [laneIota_apply]; exact word_eq_iff _ _ (by have := l.isLt; omega) hj

/-- A [1, 1] array repeated over the 8 × 128 array reads, everywhere, its one entry. -/
theorem cellSpread_apply (v : FVec Ideal S1x1 .f32) (r : Fin 8) (l : Fin 128) :
    broadcastTo S8x128 v broadcasts_S1x1_S8x128 (ix2 r l) = v (ix2 (0 : Fin 1) (0 : Fin 1)) := by
  refine broadcastTo_apply v broadcasts_S1x1_S8x128 (ix2 r l) (ix2 (0 : Fin 1) (0 : Fin 1)) fun a => ?_
  match a with
  | ⟨0, _⟩ => rfl
  | ⟨1, _⟩ => rfl

/-- The 8 × 128 array of zeros the placement starts from, and the zero block the first tile of a batch entry stores. -/
theorem zero8_apply (i : S8x128.Idx) : k0_pay5 (F := Ideal) i = 0 := by
  show Ideal.ofBits .f32 0x00000000#32 = 0
  exact Ideal.ofBits_zero_f32

theorem zeroBlock_apply (i : S1x8x128.Idx) : k0_pay1 (F := Ideal) i = 0 := by
  show Ideal.ofBits .f32 0x00000000#32 = 0
  exact Ideal.ofBits_zero_f32

/-- Class 1's three numbers `a`, `b`, `c` placed in lane 0 on top of `acc`. -/
theorem place1_apply (acc : FVec Ideal S8x128 .f32) (a b c : FVec Ideal S1x1 .f32) (r : Fin 8) (l : Fin 128) :
    k0_pay13 (F := Ideal) (iota Kind.tc S8x128 32 [0] iota_S8x128_d0_w32) (iota Kind.tc S8x128 32 [1] iota_S8x128_d1_w32) acc a b c k0_pay11 k0_pay12 (ix2 r l)
      = ((acc (ix2 r l) + at_ 0 0 r l * a (ix2 (0 : Fin 1) (0 : Fin 1))) + at_ 1 0 r l * b (ix2 (0 : Fin 1) (0 : Fin 1)))
          + at_ 2 0 r l * c (ix2 (0 : Fin 1) (0 : Fin 1)) := by
  unfold k0_pay13 k0_pay11 k0_pay12
  exact congrArg₂ (· + ·) (congrArg₂ (· + ·) (congrArg₂ (· + ·) rfl
    (congrArg₂ (· * ·) (onehot_apply 0 0 (by decide) (by decide) r l) (cellSpread_apply a r l)))
    (congrArg₂ (· * ·) (onehot_apply 1 0 (by decide) (by decide) r l) (cellSpread_apply b r l)))
    (congrArg₂ (· * ·) (onehot_apply 2 0 (by decide) (by decide) r l) (cellSpread_apply c r l))

/-- Class 2's three numbers placed in lane 1 on top of `acc`. -/
theorem place2_apply (acc : FVec Ideal S8x128 .f32) (a b c : FVec Ideal S1x1 .f32) (r : Fin 8) (l : Fin 128) :
    k0_pay20 (F := Ideal) (iota Kind.tc S8x128 32 [0] iota_S8x128_d0_w32) (iota Kind.tc S8x128 32 [1] iota_S8x128_d1_w32) acc a b c k0_pay19 (ix2 r l)
      = ((acc (ix2 r l) + at_ 0 1 r l * a (ix2 (0 : Fin 1) (0 : Fin 1))) + at_ 1 1 r l * b (ix2 (0 : Fin 1) (0 : Fin 1)))
          + at_ 2 1 r l * c (ix2 (0 : Fin 1) (0 : Fin 1)) := by
  unfold k0_pay20 k0_pay19
  exact congrArg₂ (· + ·) (congrArg₂ (· + ·) (congrArg₂ (· + ·) rfl
    (congrArg₂ (· * ·) (onehot_apply 0 1 (by decide) (by decide) r l) (cellSpread_apply a r l)))
    (congrArg₂ (· * ·) (onehot_apply 1 1 (by decide) (by decide) r l) (cellSpread_apply b r l)))
    (congrArg₂ (· * ·) (onehot_apply 2 1 (by decide) (by decide) r l) (cellSpread_apply c r l))

/-- Class 3's three numbers (the count still a [1] array) placed in lane 2 on top of `acc`, the result viewed [1, 8, 128] and
    added to the block `old`. -/
theorem place3_apply (acc : FVec Ideal S8x128 .f32) (a b : FVec Ideal S1x1 .f32) (c : FVec Ideal S1 .f32)
    (old : Vec Ideal S1x8x128 .f32) (r : Fin 8) (l : Fin 128) :
    k0_pay2 (F := Ideal) (iota Kind.tc S8x128 32 [0] iota_S8x128_d0_w32) (iota Kind.tc S8x128 32 [1] iota_S8x128_d1_w32) acc a b c old (ix3 (0 : Fin 1) r l)
      = old (ix3 (0 : Fin 1) r l)
        + (((acc (ix2 r l) + at_ 0 2 r l * a (ix2 (0 : Fin 1) (0 : Fin 1))) + at_ 1 2 r l * b (ix2 (0 : Fin 1) (0 : Fin 1)))
          + at_ 2 2 r l * c (ix1 (0 : Fin 1))) := by
  unfold k0_pay2
  refine congrArg₂ (· + ·) (congrFun (shapeCast_self old shapeCasts_S1x8x128_S1x8x128) _) ?_
  refine (shapeCast_ab_1ab_apply _ shapeCasts_S8x128_S1x8x128 (0 : Fin 1) r l).trans ?_
  exact congrArg₂ (· + ·) (congrArg₂ (· + ·) (congrArg₂ (· + ·) rfl
    (congrArg₂ (· * ·) (onehot_apply 0 2 (by decide) (by decide) r l) (cellSpread_apply a r l)))
    (congrArg₂ (· * ·) (onehot_apply 1 2 (by decide) (by decide) r l) (cellSpread_apply b r l)))
    (congrArg₂ (· * ·) (onehot_apply 2 2 (by decide) (by decide) r l)
      ((cellSpread_apply _ r l).trans (shapeCast_a_1a_apply c shapeCasts_S1_S1x1 (0 : Fin 1) (0 : Fin 1))))

end Cert.KernelIdeal.Tile

end
-- ==== Proof.TilePieces.lean ====
/-
  One grid point's effect on the accumulator block, in the specification's words.

  The term the body leaves (`body`) is, entry by entry, the old block plus the tile's nine sums each at its position: the three
  placements add class 1's, class 2's and class 3's numbers in turn onto an array of zeros, and the result is added to the old
  block. Re-associating the nine-term sum (addition of extended reals is associative, and adding zero changes nothing) gives the
  specification's `tileAcc`. On the first tile of a batch entry the old block is the zero block just stored.
-/
import proofs.«140613_j68015102099647_1_alg».proof.Proof.TileBody
import proofs.«140613_j68015102099647_1_alg».proof.Proof.TileSums
import proofs.«140613_j68015102099647_1_alg».proof.Proof.TilePlace

noncomputable section

open Idealize.ShloMosaic Idealize.ShloMosaic.ValueIdx Idealize.ShloMosaic.TcCoe Idealize.SL.Sem

namespace Cert.KernelIdeal.Tile

open Cert.KernelIdeal Cert.KernelIdeal.Gen Cert.ClassVar

/-- The block after a tile is added, at entry `(r, l)`: the old entry plus the tile's share there. -/
theorem body_apply (x0 : Vec Ideal S1x4x128x1024 .f32) (x1 : Vec Ideal S1x128x1024 .i32) (acc : Vec Ideal S1x8x128 .f32)
    (r : Fin 8) (l : Fin 128) :
    body (F := Ideal) x0 x1 acc (ix3 (0 : Fin 1) r l) = acc (ix3 (0 : Fin 1) r l) + tileAcc x0 x1 r l := by
  unfold body
  refine (place3_apply _ _ _ _ acc r l).trans (congrArg (acc (ix3 (0 : Fin 1) r l) + ·) ?_)
  rw [place2_apply, place1_apply, zero8_apply, sum1_eq, sq1_eq, cnt1_eq, sum2_eq, sq2_eq, cnt2_eq, sum3_eq, sq3_eq, cnt3_eq]
  unfold tileAcc
  rw [Fin.sum_univ_three]
  simp only [zero_add, add_assoc]
  rfl

/-- A tile that is not the first of its batch entry adds its share to what the block held. -/
theorem out_B [Cert.KernelIdeal.Facts] (c : Dev nD) (i : grid0.Coords) (arg2 : Memref sig .tc .vmem S1x4x128x1024 .f32) (harg2 : arg2.IsWhole) (arg3 : Memref sig .tc .vmem S1x128x1024 .i32) (harg3 : arg3.IsWhole) (arg4 : Memref sig .tc .vmem S1x8x128 .f32) (harg4 : arg4.IsWhole) (hc0 : ¬cond0_0 i)
    (x0 : Vec Ideal S1x4x128x1024 .f32) (x1 : Vec Ideal S1x128x1024 .i32) (xo2 : Vec Ideal S1x8x128 .f32) (r : Fin 8) (l : Fin 128) :
    out0_B_2 (F := Ideal) c i arg2 harg2 arg3 harg3 arg4 harg4 hc0 x0 x1 xo2 (ix3 (0 : Fin 1) r l)
      = xo2 (ix3 (0 : Fin 1) r l) + tileAcc x0 x1 r l :=
  (congrFun (out_B_body c i arg2 harg2 arg3 harg3 arg4 harg4 hc0 x0 x1 xo2) _).trans (body_apply x0 x1 xo2 r l)

/-- The first tile of a batch entry leaves its share alone: the block was reset to zero first. -/
theorem out_A [Cert.KernelIdeal.Facts] (c : Dev nD) (i : grid0.Coords) (arg2 : Memref sig .tc .vmem S1x4x128x1024 .f32) (harg2 : arg2.IsWhole) (arg3 : Memref sig .tc .vmem S1x128x1024 .i32) (harg3 : arg3.IsWhole) (arg4 : Memref sig .tc .vmem S1x8x128 .f32) (harg4 : arg4.IsWhole) (hc0 : cond0_0 i)
    (x0 : Vec Ideal S1x4x128x1024 .f32) (x1 : Vec Ideal S1x128x1024 .i32) (r : Fin 8) (l : Fin 128) :
    out0_A_2 (F := Ideal) c i arg2 harg2 arg3 harg3 arg4 harg4 hc0 x0 x1 (ix3 (0 : Fin 1) r l) = tileAcc x0 x1 r l := by
  refine (congrFun (out_A_body c i arg2 harg2 arg3 harg3 arg4 harg4 hc0 x0 x1) _).trans
    ((body_apply x0 x1 (k0_pay1 (F := Ideal)) r l).trans ?_)
  rw [zeroBlock_apply, zero_add]

end Cert.KernelIdeal.Tile

end
-- ==== Proof.ChannelMax.lean ====
/-
  The largest logit of a pixel.

  The program takes the maximum of the logits array over the channel axis, starting from the word that encodes -∞, and then
  once more the maximum of -∞ and that. On the extended reals -∞ is the least element, so both steps together are the fold
  of `max` from `⊥` over the pixel's four logits.
-/
import proofs.«140613_j68015102099647_1_alg».proof.Proof.RefReadPatched
import proofs.«140613_j68015102099647_1_alg».proof.Proof.Spec

noncomputable section

open scoped BigOperators

namespace Cert.ClassVar.Ref

open Idealize.ShloMosaic Idealize.ShloMosaic.ValueIdx Cert.ReferenceIdeal Cert.ReferenceIdeal.ReadP

/-- The f32 word `0xFF800000` is -∞, the least extended real. -/
theorem ofBits_neg_inf : Ideal.ofBits .f32 0xFF800000#32 = (⊥ : EReal) := by
  simp [Ideal.ofBits, Ideal.ieee]

/-- The maximum over the channel axis at pixel (b, r, w): the fold of `max` from `⊥` over the pixel's logits. -/
theorem max_channels [Facts] (X : SX.Idx → EReal) (b : Fin 16) (r w : Fin 1024) :
    val_main_v0 (F := Ideal) X (ix3 b r w) = pmax (px X b r w) := by
  have hR : S16x4x1024x1024.Reduces [1] S16x1024x1024 := by decide
  have hfold := Host.reduce_eq_fold_single (FloatOps.maximumf (F := Ideal) (φ := .f32)) X (val_main_cst (F := Ideal))
    Facts₀.reducesTo_S16x4x1024x1024_S16x1024x1024_d1 hR Facts₀.h_S_ (ix3 b r w)
  unfold val_main_v0
  refine hfold.trans ?_
  rw [val_main_cst_apply, Ideal.ofBits_def, ofBits_neg_inf]
  unfold pmax
  refine congrArg (Finset.univ.fold max ⊥) (funext fun c => ?_)
  show X _ = X (ix4 b c r w)
  exact congrArg X (funext fun a => Fin.ext (by
    match a with | ⟨0, _⟩ => rfl | ⟨1, _⟩ => rfl | ⟨2, _⟩ => rfl | ⟨3, _⟩ => rfl))

/-- With the second maximum against -∞: still the pixel's largest logit. -/
theorem max_pixel [Facts] (X : SX.Idx → EReal) (b : Fin 16) (r w : Fin 1024) :
    val_main_v2 (F := Ideal) X (ix3 b r w) = pmax (px X b r w) := by
  rw [val_main_v2_apply, val_main_v1_apply, val_main_cst_0_apply, Ideal.maximumf_def, Ideal.ofBits_def,
    ofBits_neg_inf, max_channels]
  exact max_eq_right bot_le

end Cert.ClassVar.Ref

end
-- ==== Proof.PixelRead.lean ====
/-
  The program's per-pixel arrays read at one element.

  At pixel (b, r, w) and channel c the program's softmax array holds `prob` of the pixel's four logits; at foreground class
  j (label j + 1, channel j + 1) its mask array holds `mask` of the pixel's label, and their product is the masked class
  probability `pc`. Each array is read through the operations that build it: a broadcast reads its operand at the
  coordinates it keeps, an arithmetic operation acts on the two elements.
-/
import proofs.«140613_j68015102099647_1_alg».proof.Proof.ChannelMax

noncomputable section

open scoped BigOperators

namespace Cert.ClassVar.Ref

open Idealize.ShloMosaic Idealize.ShloMosaic.ValueIdx Cert.ReferenceIdeal Cert.ReferenceIdeal.ReadP

/-! ## The softmax -/

/-- The pixel's largest logit, broadcast over the channels. -/
theorem max_bcast [Facts] (X : SX.Idx → EReal) (b : Fin 16) (c : Fin 4) (r w : Fin 1024) :
    val_main_v4 (F := Ideal) X (ix4 b c r w) = pmax (px X b r w) := by
  rw [val_main_v4_apply, val_main_v3_apply]
  refine (congrArg (val_main_v2 (F := Ideal) X)
    (?_ : idx_main_v3 (idx_main_v4 (ix4 b c r w)) = ix3 b r w)).trans (max_pixel X b r w)
  funext a
  match a with | ⟨0, _⟩ => rfl | ⟨1, _⟩ => rfl | ⟨2, _⟩ => rfl

/-- The exponential of a logit less the largest. -/
theorem exp_read [Facts] (X : SX.Idx → EReal) (b : Fin 16) (c : Fin 4) (r w : Fin 1024) :
    val_main_v6 (F := Ideal) X (ix4 b c r w) = pexp (px X b r w) c := by
  rw [val_main_v6_apply, val_main_v5_apply, max_bcast, Ideal.hostUnary_exp_def, Ideal.subf_def]
  rfl

/-- The sum of the four exponentials. -/
theorem den_read [Facts] (X : SX.Idx → EReal) (b : Fin 16) (r w : Fin 1024) :
    val_main_v7 (F := Ideal) X (ix3 b r w) = pden (px X b r w) := by
  rw [val_main_v7_apply, val_main_cst_1_apply, Ideal.ofBits_def, Ideal.ofBits_zero_f32, zero_add]
  unfold pden
  refine Finset.sum_congr rfl fun k _ => ?_
  refine (congrArg (val_main_v6 (F := Ideal) X)
    (?_ : idx_main_v7 (ix3 b r w) k = ix4 b k r w)).trans (exp_read X b k r w)
  funext a
  match a with | ⟨0, _⟩ => rfl | ⟨1, _⟩ => rfl | ⟨2, _⟩ => rfl | ⟨3, _⟩ => rfl

/-- That sum, broadcast over the channels. -/
theorem den_bcast [Facts] (X : SX.Idx → EReal) (b : Fin 16) (c : Fin 4) (r w : Fin 1024) :
    val_main_v9 (F := Ideal) X (ix4 b c r w) = pden (px X b r w) := by
  rw [val_main_v9_apply, val_main_v8_apply]
  refine (congrArg (val_main_v7 (F := Ideal) X)
    (?_ : idx_main_v8 (idx_main_v9 (ix4 b c r w)) = ix3 b r w)).trans (den_read X b r w)
  funext a
  match a with | ⟨0, _⟩ => rfl | ⟨1, _⟩ => rfl | ⟨2, _⟩ => rfl

/-- The softmax probability of channel `c`. -/
theorem prob_read [Facts] (X : SX.Idx → EReal) (b : Fin 16) (c : Fin 4) (r w : Fin 1024) :
    val_main_v10 (F := Ideal) X (ix4 b c r w) = prob (px X b r w) c := by
  rw [val_main_v10_apply, exp_read, den_bcast, Ideal.hostDivf_def]
  rfl

/-- The slice that drops the background channel: class `j` reads channel `j + 1`. -/
theorem prob_class [Facts] (X : SX.Idx → EReal) (b : Fin 16) (j : Fin 3) (r w : Fin 1024) :
    val_main_v20 (F := Ideal) X (ix4 b j r w) = prob (px X b r w) (chan j) := by
  rw [val_main_v20_apply]
  refine (congrArg (val_main_v10 (F := Ideal) X)
    (?_ : idx_main_v20 (ix4 b j r w) = ix4 b (chan j) r w)).trans (prob_read X b (chan j) r w)
  funext a
  match a with
  | ⟨0, _⟩ => rfl
  | ⟨1, _⟩ => exact Fin.ext (Nat.add_comm 1 j.val)
  | ⟨2, _⟩ => rfl
  | ⟨3, _⟩ => rfl

/-! ## The mask -/

/-- The class words: one plus the position, that is, the label of class `j`. -/
theorem cls_read (j : Fin 3) : val_main_v13 (F := Ideal) (ix1 j) = cls j := by
  rw [val_main_v13_apply, val_main_v12_apply, val_main_c_apply, val_main_v11_apply]
  fin_cases j <;> rfl

/-- A word comparison converted to a float is 1 where the words agree and 0 where they do not. -/
theorem uitofp_cmpi_eq (t c : BitVec 32) :
    FloatOps.uitofp (F := Ideal) .f32 (IntOp.cmpi .eq t c) = if t = c then (1 : EReal) else 0 := by
  show (((IntOp.cmpi .eq t c).toNat : ℝ) : EReal) = _
  by_cases h : t = c
  · rw [if_pos h]; subst h; simp [IntOp.cmpi]
  · rw [if_neg h]; simp [IntOp.cmpi, h]

/-- The mask of class `j` at pixel (b, r, w). -/
theorem mask_read [Facts] (T : ST.Idx → BitVec 32) (b : Fin 16) (j : Fin 3) (r w : Fin 1024) :
    val_main_v19 (F := Ideal) T (ix4 b j r w) = mask (lab T b r w) j := by
  have e1 : idx_main_v14 (idx_main_v16 (ix4 b j r w)) = ix3 b r w := by
    funext a
    match a with | ⟨0, _⟩ => rfl | ⟨1, _⟩ => rfl | ⟨2, _⟩ => rfl
  have e2 : idx_main_v15 (idx_main_v17 (ix4 b j r w)) = ix1 j := by
    funext a
    match a with | ⟨0, _⟩ => rfl
  rw [val_main_v19_apply, val_main_v18_apply, val_main_v16_apply, val_main_v14_apply, val_main_v17_apply,
    val_main_v15_apply, e1, e2, cls_read, uitofp_cmpi_eq]
  rfl

/-! ## The masked class probability -/

theorem pc_read [Facts] (X : SX.Idx → EReal) (T : ST.Idx → BitVec 32) (b : Fin 16) (j : Fin 3) (r w : Fin 1024) :
    val_main_v21 (F := Ideal) X T (ix4 b j r w) = pc (px X b r w) (lab T b r w) j := by
  rw [val_main_v21_apply, prob_class, mask_read, Ideal.mulf_def]
  rfl

end Cert.ClassVar.Ref

end
-- ==== Proof.ClassPixelSum.lean ====
/-
  Summing over the pixels of one class.

  An index of the [16, 3, 1024, 1024] array is (batch, class, row, column). Removing the batch, row and column
  coordinates leaves the class, so the indices that reduce to class `j` are exactly the (b, j, r, w), one for each pixel
  (b, r, w). A sum over them is therefore the triple sum over the batch entries, the rows and the columns. The same holds
  for an index set of rank one: a sum over it is the sum over its one coordinate.
-/
import Idealize.ShloMosaic.PureOps.Reduce
import Idealize.ShloMosaic.Lib.ValueIdx

noncomputable section

open scoped BigOperators

namespace Cert.ClassVar.Ref

open Idealize.ShloMosaic Idealize.ShloMosaic.ValueIdx

/-- The per-class array's shape [batch, class, row, column] and the per-class result's shape [class]. -/
abbrev SC : Shape := ⟨4, ![16, 3, 1024, 1024]⟩
abbrev S3c : Shape := ⟨1, ![3]⟩

/-- Removing batch, row and column from (b, c, r, w) leaves the class `c`. -/
theorem drop_val (h : SC.ReducesTo [0, 2, 3] S3c) (i : SC.Idx) (a : Fin 1) :
    (h.drop i a : Nat) = (i 1 : Nat) := by
  obtain rfl : a = 0 := Subsingleton.elim _ _
  exact Shape.ReducesTo.drop_apply_val_of_eq h i 0 1

/-- An index reduces to class `j` exactly when its class coordinate is `j`. -/
theorem drop_eq_iff (h : SC.ReducesTo [0, 2, 3] S3c) (i : SC.Idx) (j : Fin 3) :
    h.drop i = ix1 j ↔ (i 1 : Nat) = j.val := by
  constructor
  · intro e
    have := congrArg (fun k : S3c.Idx => (k 0 : Nat)) e
    simpa only [drop_val h i 0] using this
  · intro e
    funext a
    obtain rfl : a = 0 := Subsingleton.elim _ _
    exact Fin.ext ((drop_val h i 0).trans e)

/-- The sum over the indices that reduce to class `j` is the sum over the pixels, read at that class. -/
theorem sum_filter_drop_class {M : Type*} [AddCommMonoid M] (h : SC.ReducesTo [0, 2, 3] S3c) (f : SC.Idx → M) (j : Fin 3) :
    ∑ i ∈ Finset.univ.filter (fun i => h.drop i = ix1 j), f i
      = ∑ b : Fin 16, ∑ r : Fin 1024, ∑ w : Fin 1024, f (ix4 b j r w) := by
  have hprod : ∑ b : Fin 16, ∑ r : Fin 1024, ∑ w : Fin 1024, f (ix4 b j r w)
      = ∑ p : Fin 16 × Fin 1024 × Fin 1024, f (ix4 p.1 j p.2.1 p.2.2) := by
    simp only [Fintype.sum_prod_type]
  rw [hprod]
  have back : ∀ i : SC.Idx, (i 1 : Nat) = j.val → (ix4 (i 0) j (i 2) (i 3) : SC.Idx) = i := by
    intro i e
    funext a
    match a with
    | ⟨0, _⟩ => rfl
    | ⟨1, _⟩ => exact Fin.ext e.symm
    | ⟨2, _⟩ => rfl
    | ⟨3, _⟩ => rfl
  refine Finset.sum_nbij' (fun i => ((i 0 : Fin 16), (i 2 : Fin 1024), (i 3 : Fin 1024)))
    (fun p => (ix4 p.1 j p.2.1 p.2.2 : SC.Idx)) ?_ ?_ ?_ ?_ ?_
  · intro i _; exact Finset.mem_univ _
  · intro p _
    exact Finset.mem_filter.2 ⟨Finset.mem_univ _, (drop_eq_iff h _ j).2 rfl⟩
  · intro i hi
    exact back i ((drop_eq_iff h i j).1 (Finset.mem_filter.1 hi).2)
  · intro p _; rfl
  · intro i hi
    exact congrArg f (back i ((drop_eq_iff h i j).1 (Finset.mem_filter.1 hi).2)).symm

/-- A sum over a rank-one index set is the sum over its coordinate. -/
theorem sum_idx1 {M : Type*} [AddCommMonoid M] {n : Nat} (f : (⟨1, ![n]⟩ : Shape).Idx → M) :
    ∑ i, f i = ∑ a : Fin n, f (ix1 a) := by
  refine Finset.sum_nbij' (fun i => (i 0 : Fin n)) (fun a => (ix1 a : (⟨1, ![n]⟩ : Shape).Idx)) ?_ ?_ ?_ ?_ ?_
  · intro i _; exact Finset.mem_univ _
  · intro a _; exact Finset.mem_univ _
  · intro i _; exact (eq_ix1 i).symm
  · intro a _; rfl
  · intro i _; exact congrArg f (eq_ix1 i)

end Cert.ClassVar.Ref

end
-- ==== Proof.ClassSums.lean ====
/-
  The program's per-class numbers.

  Each of the program's three sums over batch, row and column, read at class j, starts from the word of zero and adds the
  operand over the indices that reduce to j: by the re-indexing of the class's pixels it is the triple sum of the operand at
  (b, j, r, w). Read so, the sum of the mask array is the class count, the sum of the masked probabilities their sum, and,
  once the quotient of the two is read as the class mean, the sum of the masked squared deviations is `dev`. The quotient by
  the count plus ε is the class variance, and the select on "count above zero" keeps it for the classes that occur.
-/
import proofs.«140613_j68015102099647_1_alg».proof.Proof.PixelRead
import proofs.«140613_j68015102099647_1_alg».proof.Proof.ClassPixelSum
import Idealize.ShloMosaic.Lib.IdealHost

noncomputable section

open scoped BigOperators

namespace Cert.ClassVar.Ref

open Idealize.ShloMosaic Idealize.ShloMosaic.ValueIdx Cert.ReferenceIdeal Cert.ReferenceIdeal.ReadP

/-- A sum over batch, row and column from an initial value of zero, read at class `j`. -/
theorem reduce_class [Facts] (y : FVec Ideal S16x3x1024x1024 .f32)
    (c : S_.Idx → Ideal .f32) (hc : c (Shape.Idx.first Facts₀.h_S_) = 0) (j : Fin 3) :
    Host.reduceAdd (F := Ideal) (φ := .f32) y c Facts₀.reducesTo_S16x3x1024x1024_S3_d0_2_3 Facts₀.h_S_ (ix1 j)
      = ∑ b : Fin 16, ∑ r : Fin 1024, ∑ w : Fin 1024, y (ix4 b j r w) := by
  rw [hostReduceAdd_apply, hc]
  unfold Ideal.hostReduceAdd
  rw [zero_add]
  exact sum_filter_drop_class Facts₀.reducesTo_S16x3x1024x1024_S3_d0_2_3 y j

/-- The word of zero is the extended real zero, at each of the program's zero constants. -/
theorem zero_word : FloatOps.ofBits (F := Ideal) .f32 0x00000000#32 = (0 : EReal) := by
  rw [Ideal.ofBits_def, Ideal.ofBits_zero_f32]

/-- The class count. -/
theorem cnt_read [Facts] (T : ST.Idx → BitVec 32) (j : Fin 3) :
    val_main_v22 (F := Ideal) T (ix1 j) = cnt T j := by
  unfold val_main_v22
  refine (reduce_class (val_main_v19 (F := Ideal) T) (val_main_cst_2 (F := Ideal))
    ((val_main_cst_2_apply _).trans zero_word) j).trans ?_
  unfold cnt
  exact Finset.sum_congr rfl fun b _ => Finset.sum_congr rfl fun r _ => Finset.sum_congr rfl fun w _ =>
    mask_read T b j r w

/-- The sum of the masked class probabilities. -/
theorem sm_read [Facts] (X : SX.Idx → EReal) (T : ST.Idx → BitVec 32) (j : Fin 3) :
    val_main_v23 (F := Ideal) X T (ix1 j) = sm X T j := by
  unfold val_main_v23
  refine (reduce_class (val_main_v21 (F := Ideal) X T) (val_main_cst_3 (F := Ideal))
    ((val_main_cst_3_apply _).trans zero_word) j).trans ?_
  unfold sm
  exact Finset.sum_congr rfl fun b _ => Finset.sum_congr rfl fun r _ => Finset.sum_congr rfl fun w _ =>
    pc_read X T b j r w

/-- The class mean. -/
theorem mean_read [Facts] (X : SX.Idx → EReal) (T : ST.Idx → BitVec 32) (j : Fin 3) :
    val_main_v26 (F := Ideal) X T (ix1 j) = mean X T j := by
  rw [val_main_v26_apply, sm_read, val_main_v25_apply, cnt_read, val_main_v24_apply, val_main_cst_4_apply,
    Ideal.hostDivf_def, Ideal.addf_def, Ideal.ofBits_def]
  rfl

/-- The class mean, broadcast over the pixels. -/
theorem mean_bcast [Facts] (X : SX.Idx → EReal) (T : ST.Idx → BitVec 32) (b : Fin 16) (j : Fin 3) (r w : Fin 1024) :
    val_main_v28 (F := Ideal) X T (ix4 b j r w) = mean X T j := by
  rw [val_main_v28_apply, val_main_v27_apply]
  refine (congrArg (val_main_v26 (F := Ideal) X T)
    (?_ : idx_main_v27 (idx_main_v28 (ix4 b j r w)) = ix1 j)).trans (mean_read X T j)
  funext a
  match a with | ⟨0, _⟩ => rfl

/-- A pixel's masked squared deviation from the class mean. -/
theorem dev_term [Facts] (X : SX.Idx → EReal) (T : ST.Idx → BitVec 32) (b : Fin 16) (j : Fin 3) (r w : Fin 1024) :
    val_main_v31 (F := Ideal) X T (ix4 b j r w)
      = ((pc (px X b r w) (lab T b r w) j - mean X T j) * (pc (px X b r w) (lab T b r w) j - mean X T j))
          * mask (lab T b r w) j := by
  rw [val_main_v31_apply, val_main_v30_apply, val_main_v29_apply, pc_read, mean_bcast, mask_read,
    Ideal.mulf_def, Ideal.mulf_def, Ideal.subf_def]

/-- The sum of the masked squared deviations. -/
theorem dev_read [Facts] (X : SX.Idx → EReal) (T : ST.Idx → BitVec 32) (j : Fin 3) :
    val_main_v32 (F := Ideal) X T (ix1 j) = dev X T j := by
  unfold val_main_v32
  refine (reduce_class (val_main_v31 (F := Ideal) X T) (val_main_cst_5 (F := Ideal))
    ((val_main_cst_5_apply _).trans zero_word) j).trans ?_
  unfold dev
  exact Finset.sum_congr rfl fun b _ => Finset.sum_congr rfl fun r _ => Finset.sum_congr rfl fun w _ =>
    dev_term X T b j r w

/-- The class variance. -/
theorem var_read [Facts] (X : SX.Idx → EReal) (T : ST.Idx → BitVec 32) (j : Fin 3) :
    val_main_v35 (F := Ideal) X T (ix1 j) = varDev X T j := by
  rw [val_main_v35_apply, dev_read, val_main_v34_apply, cnt_read, val_main_v33_apply, val_main_cst_6_apply,
    Ideal.hostDivf_def, Ideal.addf_def, Ideal.ofBits_def]
  rfl

/-- A select on "the first operand is above zero" is the `if` on that. -/
theorem select_ogt_zero (n v : EReal) :
    Scalar.select (FloatOps.cmpf (F := Ideal) (φ := .f32) .ogt n (0 : EReal)) v (0 : EReal) = pick n v := by
  unfold pick
  rw [Ideal.cmpf_def]
  unfold Ideal.cmp Scalar.select
  by_cases h : (0 : EReal) < n
  · simp [h]
  · simp [h]

/-- The variance of a class that occurs, zero for one that does not. -/
theorem pick_read [Facts] (X : SX.Idx → EReal) (T : ST.Idx → BitVec 32) (j : Fin 3) :
    val_main_v39 (F := Ideal) X T (ix1 j) = pick (cnt T j) (varDev X T j) := by
  rw [val_main_v39_apply, val_main_v37_apply, cnt_read, val_main_v36_apply, val_main_cst_7_apply, zero_word,
    var_read, val_main_v38_apply, val_main_cst_8_apply, zero_word]
  exact select_ogt_zero _ _

end Cert.ClassVar.Ref

end
-- ==== Proof.RefValue.lean ====
/-
  The reference program's result.

  Its last two operations add the three classes' kept variances, from the word of zero, and divide by the word of three:
  the mean over the classes of the variances, taken from the deviations, of those that occur.
-/
import proofs.«140613_j68015102099647_1_alg».proof.Proof.ClassSums

noncomputable section

open scoped BigOperators

namespace Cert.ClassVar.Ref

open Idealize.ShloMosaic Idealize.ShloMosaic.ValueIdx Cert.ReferenceIdeal Cert.ReferenceIdeal.ReadP

theorem value_eq [Cert.ReferenceIdeal.Facts] (X : Cert.ClassVar.SX.Idx → EReal) (T : Cert.ClassVar.ST.Idx → BitVec 32) :
    Cert.ReferenceIdeal.ReadP.val_main_v41 (F := Ideal) X T = fun _ => Cert.ClassVar.outDev X T := by
  funext i
  rw [val_main_v41_apply, val_main_v40_apply, val_main_cst_9_apply, zero_word, zero_add, val_main_cst_10_apply,
    Ideal.hostDivf_def, Ideal.ofBits_def, sum_idx1]
  unfold outDev
  refine congrArg (fun s => Ideal.div s three) (Finset.sum_congr rfl fun j _ => ?_)
  exact pick_read X T j

end Cert.ClassVar.Ref

end
-- ==== Proof.LibRealSums.lean ====
/-
  Extended reals that are real numbers, and the three algebraic laws this certificate's bridge rests on.

  An extended real is REAL when it is the coercion of a real number; the reals inside the extended reals are
  closed under sum, difference, product, negation, maximum and finite sums, and on them the ring laws hold
  (they fail at the infinities: distributivity needs every term real). Over a finite index type:

  * folding a three-term Chebyshev combination into the weights:
      Σ a·(u − w) + Σ b·v + Σ c·(t·w)  =  Σ a·u + Σ b·v + Σ (t·c − a)·w      (every entry real);
  * an affine map written two ways:  z·s + (β − μ·s) = (z − μ)·s + β          (every entry real);
  * a sum over 4·n indices is the sum of its four consecutive blocks of n (any commutative monoid: no
    finiteness needed).
-/
import Mathlib.Data.EReal.Basic
import Mathlib.Data.EReal.Operations
import Mathlib.Algebra.BigOperators.Fin
import Mathlib.Tactic.Ring
import Mathlib.Tactic.NormNum

namespace Cert.Lib.RealSums

open scoped BigOperators

/-- The extended real `x` is a real number. -/
def IsReal (x : EReal) : Prop := ∃ r : ℝ, x = (r : EReal)

theorem isReal_coe (r : ℝ) : IsReal (r : EReal) := ⟨r, rfl⟩
theorem isReal_zero : IsReal (0 : EReal) := ⟨0, rfl⟩

theorem IsReal.add {x y : EReal} (hx : IsReal x) (hy : IsReal y) : IsReal (x + y) := by
  obtain ⟨r, rfl⟩ := hx
  obtain ⟨s, rfl⟩ := hy
  exact ⟨r + s, (EReal.coe_add r s).symm⟩
theorem IsReal.sub {x y : EReal} (hx : IsReal x) (hy : IsReal y) : IsReal (x - y) := by
  obtain ⟨r, rfl⟩ := hx
  obtain ⟨s, rfl⟩ := hy
  exact ⟨r - s, (EReal.coe_sub r s).symm⟩
theorem IsReal.mul {x y : EReal} (hx : IsReal x) (hy : IsReal y) : IsReal (x * y) := by
  obtain ⟨r, rfl⟩ := hx
  obtain ⟨s, rfl⟩ := hy
  exact ⟨r * s, (EReal.coe_mul r s).symm⟩
theorem IsReal.neg {x : EReal} (hx : IsReal x) : IsReal (-x) := by
  obtain ⟨r, rfl⟩ := hx
  exact ⟨-r, (EReal.coe_neg r).symm⟩
theorem IsReal.max {x y : EReal} (hx : IsReal x) (hy : IsReal y) : IsReal (max x y) := by
  rcases le_total x y with h | h
  · rw [max_eq_right h]; exact hy
  · rw [max_eq_left h]; exact hx

/-- A finite sum of reals is real. -/
theorem isReal_sum {ι : Type*} (s : Finset ι) (f : ι → EReal) (h : ∀ i ∈ s, IsReal (f i)) :
    IsReal (∑ i ∈ s, f i) := by
  classical
  revert h
  refine Finset.induction_on s ?_ ?_
  · intro _
    rw [Finset.sum_empty]
    exact isReal_zero
  · intro a s ha ih h
    rw [Finset.sum_insert ha]
    exact (h a (Finset.mem_insert_self a s)).add (ih fun i hi => h i (Finset.mem_insert_of_mem hi))

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  refine Finset.induction_on s ?_ ?_
  · rw [Finset.sum_empty, Finset.sum_empty]; rfl
  · intro a s ha ih
    rw [Finset.sum_insert ha, Finset.sum_insert ha, EReal.coe_add, ih]

/-- A real extended real is neither infinity. -/
theorem IsReal.ne_top {x : EReal} (hx : IsReal x) : x ≠ ⊤ := by
  obtain ⟨r, rfl⟩ := hx
  exact EReal.coe_ne_top r
theorem IsReal.ne_bot {x : EReal} (hx : IsReal x) : x ≠ ⊥ := by
  obtain ⟨r, rfl⟩ := hx
  exact EReal.coe_ne_bot r
/-- An extended real strictly between the infinities is real. -/
theorem isReal_of_ne {x : EReal} (h1 : x ≠ ⊤) (h2 : x ≠ ⊥) : IsReal x := by
  induction x using EReal.rec with
  | bot => exact absurd rfl h2
  | coe r => exact ⟨r, rfl⟩
  | top => exact absurd rfl h1

/-- Folding the Chebyshev recursion into the weights: with every entry real and any real `t`,
    `Σ a·(u − w) + Σ b·v + Σ c·(t·w) = Σ a·u + Σ b·v + Σ (t·c − a)·w`. -/
theorem fold_weights {K : Type*} [Fintype K] (a b c u v w : K → EReal) (t : EReal)
    (ha : ∀ k, IsReal (a k)) (hb : ∀ k, IsReal (b k)) (hc : ∀ k, IsReal (c k))
    (hu : ∀ k, IsReal (u k)) (hv : ∀ k, IsReal (v k)) (hw : ∀ k, IsReal (w k)) (ht : IsReal t) :
    (∑ k, a k * (u k - w k) + ∑ k, b k * v k) + ∑ k, c k * (t * w k)
      = (∑ k, a k * u k + ∑ k, b k * v k) + ∑ k, (t * c k - a k) * w k := by
  choose a' ha' using ha
  choose b' hb' using hb
  choose c' hc' using hc
  choose u' hu' using hu
  choose v' hv' using hv
  choose w' hw' using hw
  obtain ⟨t', rfl⟩ := ht
  obtain rfl : a = fun k => (a' k : EReal) := funext ha'
  obtain rfl : b = fun k => (b' k : EReal) := funext hb'
  obtain rfl : c = fun k => (c' k : EReal) := funext hc'
  obtain rfl : u = fun k => (u' k : EReal) := funext hu'
  obtain rfl : v = fun k => (v' k : EReal) := funext hv'
  obtain rfl : w = fun k => (w' k : EReal) := funext hw'
  simp only [← EReal.coe_mul, ← EReal.coe_sub, ← EReal.coe_add, ← coe_finset_sum]
  rw [EReal.coe_eq_coe_iff]
  rw [← Finset.sum_add_distrib, ← Finset.sum_add_distrib, ← Finset.sum_add_distrib,
    ← Finset.sum_add_distrib]
  refine Finset.sum_congr rfl fun k _ => ?_
  ring

/-- An affine map of a real written two ways. -/
theorem affine_two_ways {z s β μ : EReal} (hz : IsReal z) (hs : IsReal s) (hβ : IsReal β) (hμ : IsReal μ) :
    z * s + (β - μ * s) = (z - μ) * s + β := by
  obtain ⟨z', rfl⟩ := hz
  obtain ⟨s', rfl⟩ := hs
  obtain ⟨β', rfl⟩ := hβ
  obtain ⟨μ', rfl⟩ := hμ
  simp only [← EReal.coe_mul, ← EReal.coe_sub, ← EReal.coe_add]
  rw [EReal.coe_eq_coe_iff]
  ring

/-- A sum over `n + n + n + n` indices is the sum of its four consecutive blocks. -/
theorem sum_four_blocks {M : Type*} [AddCommMonoid M] (n : Nat) (f : Fin (n + n + n + n) → M) :
    ∑ k, f k
      = ((∑ k : Fin n, f ⟨k.val, by omega⟩ + ∑ k : Fin n, f ⟨n + k.val, by omega⟩)
          + ∑ k : Fin n, f ⟨n + n + k.val, by omega⟩) + ∑ k : Fin n, f ⟨n + n + n + k.val, by omega⟩ := by
  rw [Fin.sum_univ_add, Fin.sum_univ_add, Fin.sum_univ_add]
  rfl

end Cert.Lib.RealSums
-- ==== Proof.AlgebraSumLaw.lean ====
/-
  The single-pass variance identity. Over a finite index set let p be masked values (p · μ = p: each p already carries its
  0/1 mask μ as a factor) and m any number. Then

      Σ (p − m)·(p − m)·μ  =  Σ p·p − (2·m)·Σ p + (m·m)·Σ μ,

  term by term: (p − m)²·μ = p·(p·μ) − 2m·(p·μ) + m²·μ = p² − 2m·p + m²·μ. Over the reals this is the ring laws; over the
  extended reals it holds when every entry is a real number (distributivity fails at the infinities), by moving the
  coercion out of the sums. A nested sum over three index sets is a sum over their product, so the law applies to it.
-/
import proofs.«140613_j68015102099647_1_alg».proof.Proof.LibRealSums
import Mathlib.Algebra.BigOperators.Ring.Finset
import Mathlib.Data.Fintype.BigOperators

namespace Cert.ClassVar

open scoped BigOperators
open Cert.Lib.RealSums

/-- The identity over the reals. -/
theorem real_masked_dev {ι : Type*} [Fintype ι] (p μ : ι → ℝ) (m : ℝ) (hpμ : ∀ i, p i * μ i = p i) :
    ∑ i, ((p i - m) * (p i - m)) * μ i = (∑ i, p i * p i - (2 * m) * ∑ i, p i) + (m * m) * ∑ i, μ i := by
  rw [Finset.mul_sum, Finset.mul_sum, ← Finset.sum_sub_distrib, ← Finset.sum_add_distrib]
  refine Finset.sum_congr rfl fun i _ => ?_
  calc ((p i - m) * (p i - m)) * μ i
      = p i * (p i * μ i) - (2 * m) * (p i * μ i) + (m * m) * μ i := by ring
    _ = p i * p i - (2 * m) * p i + (m * m) * μ i := by rw [hpμ i]

/-- The identity over the extended reals, every entry a real number. -/
theorem masked_dev_expand {ι : Type*} [Fintype ι] (P M : ι → EReal) (m : EReal)
    (hP : ∀ i, IsReal (P i)) (hM : ∀ i, IsReal (M i)) (hPM : ∀ i, P i * M i = P i) (hm : IsReal m) :
    (∑ i, P i * P i - (((2 : ℝ) : EReal) * m) * ∑ i, P i) + (m * m) * ∑ i, M i
      = ∑ i, ((P i - m) * (P i - m)) * M i := by
  choose p hp using hP
  choose μ hμ using hM
  obtain ⟨m', rfl⟩ := hm
  obtain rfl : P = fun i => (p i : EReal) := funext hp
  obtain rfl : M = fun i => (μ i : EReal) := funext hμ
  have hpμ : ∀ i, p i * μ i = p i := fun i => by
    have h := hPM i
    rw [← EReal.coe_mul, EReal.coe_eq_coe_iff] at h
    exact h
  simp only [← EReal.coe_mul, ← EReal.coe_sub, ← EReal.coe_add, ← coe_finset_sum]
  rw [EReal.coe_eq_coe_iff]
  exact (real_masked_dev p μ m' hpμ).symm

/-- A sum nested over three finite index sets is the sum over their product. -/
theorem sum3_eq_sum_prod {α β γ : Type*} [Fintype α] [Fintype β] [Fintype γ] {N : Type*} [AddCommMonoid N]
    (f : α → β → γ → N) : ∑ a, ∑ b, ∑ c, f a b c = ∑ x : α × β × γ, f x.1 x.2.1 x.2.2 := by
  rw [Fintype.sum_prod_type]
  refine Finset.sum_congr rfl fun a _ => ?_
  rw [Fintype.sum_prod_type]

/-- The identity for sums nested over three finite index sets. -/
theorem masked_dev_expand3 {α β γ : Type*} [Fintype α] [Fintype β] [Fintype γ] (P M : α → β → γ → EReal) (m : EReal)
    (hP : ∀ a b c, IsReal (P a b c)) (hM : ∀ a b c, IsReal (M a b c)) (hPM : ∀ a b c, P a b c * M a b c = P a b c)
    (hm : IsReal m) :
    (∑ a, ∑ b, ∑ c, P a b c * P a b c - (((2 : ℝ) : EReal) * m) * ∑ a, ∑ b, ∑ c, P a b c)
        + (m * m) * ∑ a, ∑ b, ∑ c, M a b c
      = ∑ a, ∑ b, ∑ c, ((P a b c - m) * (P a b c - m)) * M a b c := by
  rw [sum3_eq_sum_prod (fun a b c => P a b c * P a b c), sum3_eq_sum_prod P, sum3_eq_sum_prod M,
    sum3_eq_sum_prod (fun a b c => ((P a b c - m) * (P a b c - m)) * M a b c)]
  exact masked_dev_expand (fun x : α × β × γ => P x.1 x.2.1 x.2.2) (fun x => M x.1 x.2.1 x.2.2) m
    (fun x => hP _ _ _) (fun x => hM _ _ _) (fun x => hPM _ _ _) hm

end Cert.ClassVar
-- ==== Proof.AlgebraPixel.lean ====
/-
  On finite logits every quantity of a pixel is a real number. The largest of four reals, folded from -∞, is one of them,
  so a logit minus the largest is real; its exponential is a positive real; the normaliser, a sum of four positive reals, is
  a positive real, in particular not zero, so the quotient is the real quotient. The mask is 0 or 1, so it is real, it is
  not negative, and it is its own square: the masked probability is real and is unchanged by a further factor of the mask.
  The two float constants: the word 0x40000000 denotes 2, and the word of ε denotes a positive real.
-/
import proofs.«140613_j68015102099647_1_alg».proof.Proof.Spec
import proofs.«140613_j68015102099647_1_alg».proof.Proof.LibRealSums

noncomputable section

namespace Cert.ClassVar

open scoped BigOperators
open Idealize.ShloMosaic Cert.Lib.RealSums

/-- The constant 2. -/
theorem two_eq : two = ((2 : ℝ) : EReal) := by
  simp [two, Ideal.ofBits, Ideal.ieee]
  rw [← EReal.coe_mul, EReal.coe_eq_coe_iff]
  norm_num

/-- The constant ε is a positive real. -/
theorem eps_eq : ∃ e : ℝ, 0 < e ∧ eps = (e : EReal) := by
  simp [eps, Ideal.ofBits, Ideal.ieee]
  exact ⟨8796093 * (2 ^ 43)⁻¹, by positivity, (EReal.coe_mul _ _).symm⟩

/-- A quotient of reals by a nonzero real is real. -/
theorem isReal_div {a b : EReal} (ha : IsReal a) (hb : IsReal b) (hb0 : b ≠ 0) : IsReal (Ideal.div a b) := by
  obtain ⟨s, rfl⟩ := hb
  have hs : s ≠ 0 := fun h => hb0 (by rw [h]; rfl)
  rw [Ideal.div_coe hs]
  exact ha.mul (isReal_coe _)

/-- The largest of four real logits is real. -/
theorem isReal_pmax (x : Fin 4 → EReal) (hx : ∀ c, IsReal (x c)) : IsReal (pmax x) := by
  refine isReal_of_ne (ne_of_lt ?_) (ne_of_gt ?_)
  · unfold pmax
    rw [Finset.fold_max_lt]
    exact ⟨bot_lt_top, fun c _ => lt_top_iff_ne_top.mpr (hx c).ne_top⟩
  · unfold pmax
    rw [Finset.lt_fold_max]
    exact Or.inr ⟨0, Finset.mem_univ _, bot_lt_iff_ne_bot.mpr (hx 0).ne_bot⟩

/-- The shifted exponential of a real logit is a positive real. -/
theorem pexp_pos_real (x : Fin 4 → EReal) (hx : ∀ c, IsReal (x c)) (c : Fin 4) :
    ∃ e : ℝ, 0 < e ∧ pexp x c = (e : EReal) := by
  obtain ⟨r, hr⟩ := (hx c).sub (isReal_pmax x hx)
  refine ⟨Real.exp r, Real.exp_pos r, ?_⟩
  unfold pexp
  rw [hr]
  rfl

/-- The normaliser is a positive real. -/
theorem pden_pos_real (x : Fin 4 → EReal) (hx : ∀ c, IsReal (x c)) : ∃ d : ℝ, 0 < d ∧ pden x = (d : EReal) := by
  choose e he using pexp_pos_real x hx
  refine ⟨∑ c, e c, Finset.sum_pos (fun c _ => (he c).1) Finset.univ_nonempty, ?_⟩
  unfold pden
  rw [coe_finset_sum]
  exact Finset.sum_congr rfl fun c _ => (he c).2

/-- The softmax probability of real logits is real. -/
theorem isReal_prob (x : Fin 4 → EReal) (hx : ∀ c, IsReal (x c)) (c : Fin 4) : IsReal (prob x c) := by
  obtain ⟨e, _, he⟩ := pexp_pos_real x hx c
  obtain ⟨d, hd, hd'⟩ := pden_pos_real x hx
  unfold prob
  refine isReal_div ⟨e, he⟩ ⟨d, hd'⟩ ?_
  rw [hd']
  exact fun h => (ne_of_gt hd) (by exact_mod_cast h)

/-- The mask is real, -/
theorem isReal_mask (t : BitVec 32) (j : Fin 3) : IsReal (mask t j) := by
  unfold mask
  split
  · exact ⟨1, rfl⟩
  · exact isReal_zero

/-- not negative, -/
theorem mask_nonneg (t : BitVec 32) (j : Fin 3) : 0 ≤ mask t j := by
  unfold mask
  split
  · exact zero_le_one
  · exact le_refl _

/-- and its own square. -/
theorem mask_mul_mask (t : BitVec 32) (j : Fin 3) : mask t j * mask t j = mask t j := by
  unfold mask
  split
  · exact one_mul _
  · exact zero_mul _

/-- The masked probability of real logits is real, -/
theorem isReal_pc (x : Fin 4 → EReal) (hx : ∀ c, IsReal (x c)) (t : BitVec 32) (j : Fin 3) : IsReal (pc x t j) :=
  (isReal_prob x hx (chan j)).mul (isReal_mask t j)

/-- and a further factor of the mask does not change it. -/
theorem pc_mul_mask (x : Fin 4 → EReal) (t : BitVec 32) (j : Fin 3) : pc x t j * mask t j = pc x t j := by
  unfold pc
  rw [mul_assoc, mask_mul_mask]

end Cert.ClassVar

end
-- ==== Proof.AlgebraOut.lean ====
/-
  The two formulas for the class variance agree on finite logits. With every logit real, each masked probability is real
  and unchanged by a further factor of its mask; the count is a real number that is not negative, so count + ε is a
  positive real and the mean sum / (count + ε) is real. The single-pass identity, summed over all pixels with that mean,
  then says that the sum of squares minus 2·mean·sum plus mean²·count is the sum of the masked squared deviations: the
  numerators of the two variances agree for each class, hence the variances, the picked terms, their sum and its third.
-/
import proofs.«140613_j68015102099647_1_alg».proof.Proof.Spec
import proofs.«140613_j68015102099647_1_alg».proof.Proof.LibRealSums
import proofs.«140613_j68015102099647_1_alg».proof.Proof.AlgebraSumLaw
import proofs.«140613_j68015102099647_1_alg».proof.Proof.AlgebraPixel

noncomputable section

namespace Cert.ClassVar

open scoped BigOperators
open Idealize.ShloMosaic Idealize.ShloMosaic.ValueIdx Cert.Lib.RealSums

section
variable (X : SX.Idx → EReal) (T : ST.Idx → BitVec 32)

/-- The four logits of a pixel are real when every logit is. -/
theorem isReal_px (hfin : ∀ i, X i ≠ ⊤ ∧ X i ≠ ⊥) (b : Fin 16) (r w : Fin 1024) (c : Fin 4) : IsReal (px X b r w c) :=
  isReal_of_ne (hfin _).1 (hfin _).2

/-- The count is a real number, -/
theorem isReal_cnt (j : Fin 3) : IsReal (cnt T j) :=
  isReal_sum _ _ fun _ _ => isReal_sum _ _ fun _ _ => isReal_sum _ _ fun _ _ => isReal_mask _ _

/-- not negative. -/
theorem cnt_nonneg (j : Fin 3) : 0 ≤ cnt T j :=
  Finset.sum_nonneg fun _ _ => Finset.sum_nonneg fun _ _ => Finset.sum_nonneg fun _ _ => mask_nonneg _ _

/-- The sum of the masked probabilities is real. -/
theorem isReal_sm (hfin : ∀ i, X i ≠ ⊤ ∧ X i ≠ ⊥) (j : Fin 3) : IsReal (sm X T j) :=
  isReal_sum _ _ fun b _ => isReal_sum _ _ fun r _ => isReal_sum _ _ fun w _ =>
    isReal_pc _ (isReal_px X hfin b r w) _ _

/-- count + ε is real and not zero. -/
theorem isReal_den (j : Fin 3) : IsReal (cnt T j + eps) := by
  obtain ⟨e, _, hee⟩ := eps_eq
  exact (isReal_cnt T j).add ⟨e, hee⟩

theorem den_ne_zero (j : Fin 3) : cnt T j + eps ≠ 0 := by
  obtain ⟨e, he, hee⟩ := eps_eq
  obtain ⟨c, hc⟩ := isReal_cnt T j
  have hc0 : 0 ≤ c := by
    have h := cnt_nonneg T j
    rw [hc] at h
    exact_mod_cast h
  rw [hee, hc, ← EReal.coe_add]
  exact fun h => (ne_of_gt (add_pos_of_nonneg_of_pos hc0 he)) (by exact_mod_cast h)

/-- The class mean is real. -/
theorem isReal_mean (hfin : ∀ i, X i ≠ ⊤ ∧ X i ≠ ⊥) (j : Fin 3) : IsReal (mean X T j) :=
  isReal_div (isReal_sm X T hfin j) (isReal_den T j) (den_ne_zero T j)

/-- The numerators agree: sum of squares − (2·mean)·sum + (mean·mean)·count is the sum of the masked squared deviations. -/
theorem sums_eq_dev (hfin : ∀ i, X i ≠ ⊤ ∧ X i ≠ ⊥) (j : Fin 3) :
    (sq X T j - (two * mean X T j) * sm X T j) + (mean X T j * mean X T j) * cnt T j = dev X T j := by
  rw [two_eq]
  exact masked_dev_expand3 (fun b r w => pc (px X b r w) (lab T b r w) j) (fun b r w => mask (lab T b r w) j)
    (mean X T j) (fun b r w => isReal_pc _ (isReal_px X hfin b r w) _ _) (fun _ _ _ => isReal_mask _ _)
    (fun _ _ _ => pc_mul_mask _ _ _) (isReal_mean X T hfin j)

/-- The two class variances agree. -/
theorem varSums_eq_varDev (hfin : ∀ i, X i ≠ ⊤ ∧ X i ≠ ⊥) (j : Fin 3) : varSums X T j = varDev X T j :=
  congrArg (fun z => Ideal.div z (cnt T j + eps)) (sums_eq_dev X T hfin j)

/-- The two formulas for the result agree on finite logits. -/
theorem outSums_eq_outDev (hfin : ∀ i, X i ≠ ⊤ ∧ X i ≠ ⊥) : outSums X T = outDev X T := by
  unfold outSums outDev
  refine congrArg (fun z => Ideal.div z three) ?_
  exact Finset.sum_congr rfl fun j _ => by rw [varSums_eq_varDev X T hfin j]

end

end Cert.ClassVar

end
-- ==== Proof.Finite.lean ====
/-
  Finite logits. The precondition computes, for every logit x, the bit "|x| < +∞" and joins all of them by `and`, starting
  from 1. If the joined bit is 1 then every single bit is 1; and on the extended reals |x| = max x (-x) < +∞ says that x is
  neither +∞ (else x itself is +∞) nor -∞ (else -x is +∞). So under the precondition every logit is a real number.
-/
import proofs.«140613_j68015102099647_1_alg».proof.Pre_finite_inputs
import proofs.«140613_j68015102099647_1_alg».proof.Proof.Spec
import Idealize.ShloMosaic.Lib.ReduceAll

noncomputable section

namespace Cert.ClassVar

open Idealize.ShloMosaic

/-- The shape with no axes has exactly one index. -/
instance : Subsingleton Cert.Pre_finite_inputs.S_.Idx := ⟨fun a b => funext fun d => d.elim0⟩

/-- The word 0x7F800000 denotes +∞. -/
theorem inf_eq : Ideal.ofBits .f32 0x7F800000#32 = (⊤ : EReal) := by
  simp [Ideal.ofBits, Ideal.ieee]

/-- If the comparison |x| < +∞ answers 1, then x is neither infinity. -/
theorem ne_top_bot_of_abs_lt (x : EReal)
    (h : Ideal.cmp .olt (max x (-x)) (Ideal.ofBits .f32 0x7F800000#32) = 1#1) : x ≠ ⊤ ∧ x ≠ ⊥ := by
  rw [inf_eq] at h
  have hlt : max x (-x) < ⊤ := by
    by_contra hn
    have : Ideal.cmp .olt (max x (-x)) ⊤ = 0#1 := by
      simp only [Ideal.cmp, decide_eq_false hn]; rfl
    rw [this] at h
    exact absurd h (by decide)
  rw [max_lt_iff] at hlt
  refine ⟨ne_of_lt hlt.1, ?_⟩
  rintro rfl
  exact absurd hlt.2 (by simp)

/-- Under the precondition every logit is a real number: neither +∞ nor -∞. -/
theorem finite_of_pre [Cert.Pre_finite_inputs.Facts] (X : SX.Idx → EReal) (T : ST.Idx → BitVec 32)
    (h : Cert.Pre_finite_inputs.fn (F := Ideal) X T = fun _ => 1#1) : ∀ i, X i ≠ ⊤ ∧ X i ≠ ⊥ := by
  intro i
  have h0 := congrFun h ValueIdx.ix0
  dsimp only [Cert.Pre_finite_inputs.fn] at h0
  exact ne_top_bot_of_abs_lt (X i) (Host.reduce_andi_all _ _ _ _ _ h0 i)

end Cert.ClassVar

end
-- ==== Proof.lean ====
/-
  The claim: the kernel's three frames, its idealization (nothing was rewritten), and that the idealized kernel and the idealized
  reference compute the same extended real from finite logits.

  Both programs take logits [16, 4, 1024, 1024] and labels [16, 1024, 1024] and return one number: the mean, over the three
  foreground classes, of the variance of the masked class probability among the classes that occur. Per class, with the softmax
  probability `p` of a pixel, the 0/1 mask `μ` of the class and `pc = p μ`, let `N = ∑ μ`, `S = ∑ pc`, `Q = ∑ pc²` over all pixels and
  `m = S / (N + ε)`. The reference computes `∑ (pc − m)² μ / (N + ε)`; the kernel streams the pixels once, accumulating `S`, `Q`, `N`
  per batch entry in an 8 × 128 slab over eight row tiles, and computes `(Q − 2 m S + m² N) / (N + ε)` after adding the slabs.
  Because `μ` is 0 or 1, `pc μ = pc` and `μ² = μ`, so `∑ (pc − m)² μ = Q − 2 m S + m² N` for real numbers; every quantity is real
  when the logits are finite, which is the precondition.

  The kernel's side: the body's arithmetic at an index (the tile's nine sums placed in the slab), the running sum over the grid
  points of a batch entry by induction on the point, the slabs as the output array, the host operations after the region read
  over that array. The reference's side: its run read one operation at a time. The law that joins them is over the reals.
-/
import proofs.«140613_j68015102099647_1_alg».proof.Defs
import proofs.«140613_j68015102099647_1_alg».proof.Proof.Gen.Kernel
import proofs.«140613_j68015102099647_1_alg».proof.Proof.Gen.Kernel.Frame
import proofs.«140613_j68015102099647_1_alg».proof.Proof.Gen.KernelIdeal
import proofs.«140613_j68015102099647_1_alg».proof.Proof.Gen.KernelIdeal.Frame
import proofs.«140613_j68015102099647_1_alg».proof.Proof.Gen.ReferenceIdeal
import proofs.«140613_j68015102099647_1_alg».proof.Proof.Gen.Pre_finite_inputs
import proofs.«140613_j68015102099647_1_alg».proof.Proof.KernelRun
import proofs.«140613_j68015102099647_1_alg».proof.Proof.TilePieces
import proofs.«140613_j68015102099647_1_alg».proof.Proof.RefValue
import proofs.«140613_j68015102099647_1_alg».proof.Proof.AlgebraOut
import proofs.«140613_j68015102099647_1_alg».proof.Proof.Finite
import Idealize.ShloMosaic.Adequacy
import Idealize.ShloMosaic.Init

noncomputable section

namespace Cert.Proof

open Idealize.ShloMosaic Idealize.ShloMosaic.TcCoe Idealize.SL.Sem

/-- Every execution of the kernel as printed terminates without a fault and leaves its arguments as they were. -/
theorem frame_kernel : Cert.frame_Kernel := fun m ρ _ => Cert.Kernel.Gen.frame m ρ

/-- So does every execution of its idealization. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- What the first point of a batch entry leaves in the slab, and what a later one does (the body's arithmetic). -/
theorem leavesFirst : Cert.KernelIdeal.Acc.LeavesFirst :=
  fun c i a2 h2 a3 h3 a4 h4 hc x0 x1 r l => Cert.KernelIdeal.Tile.out_A c i a2 h2 a3 h3 a4 h4 hc x0 x1 r l
theorem leavesLater : Cert.KernelIdeal.Acc.LeavesLater :=
  fun c i a2 h2 a3 h3 a4 h4 hc x0 x1 xo r l => Cert.KernelIdeal.Tile.out_B c i a2 h2 a3 h3 a4 h4 hc x0 x1 xo r l

/-- From finite logits both idealized programs end at one number: the kernel's run at the formula from the three sums, the
    reference's at the formula from the deviations, of arguments that agree; the two formulas agree on finite logits. -/
theorem algebraic : Cert.algebraic_KernelIdeal_ReferenceIdeal := by
  intro m ρ m' ρ' hpre hagree
  refine ⟨fun c => fun _ => Cert.ClassVar.outSums
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Acc.run m ρ leavesFirst leavesLater, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v41_eq, (hagree c).1, (hagree c).2, Cert.ClassVar.Ref.value_eq]
  funext _
  exact (Cert.ClassVar.outSums_eq_outDev _ _ (Cert.ClassVar.finite_of_pre _ _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
